-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048 : Shape := ⟨2, ![32, 2048]⟩
abbrev S32x10 : Shape := ⟨2, ![32, 10]⟩
abbrev S32 : Shape := ⟨1, ![32]⟩
abbrev S_ : Shape := ⟨0, ![]⟩

class Facts : Prop where
  bcast_S_S32x2048 : S_.BroadcastsInDim S32x2048 (![] : Fin 0 → Fin S32x2048.rank)
  reducesTo_S32x2048_S_d0_1 : S32x2048.ReducesTo [0, 1] S_
  h_S_ : 0 < S_.numel
  bcast_S_S32x10 : S_.BroadcastsInDim S32x10 (![] : Fin 0 → Fin S32x10.rank)
  reducesTo_S32x10_S_d0_1 : S32x10.ReducesTo [0, 1] S_

variable [Facts]

def fn {F : FTy → Type} [FloatOps F] (main_arg0 : FVec F S32x2048 .f32) (main_arg1 : FVec F S32x10 .f32) (main_arg2 : IVec S32 32) : IVec S_ 1 :=
  let main_v0 : FVec F S32x2048 .f32 := Host.absf main_arg0
  let main_cst : FVec F S_ .f32 := constant S_ .f32 0x7F800000#32
  let main_v1 : FVec F S32x2048 .f32 := broadcastInDim S32x2048 ![] bcast_S_S32x2048 main_cst
  let main_v2 : IVec S32x2048 1 := cmpf .olt main_v0 main_v1
  let main_c : IVec S_ 1 := constantI S_ 1 1#1
  let main_v3 : IVec S_ 1 := (fun x v => Host.reduce IntOp.andi x v reducesTo_S32x2048_S_d0_1 h_S_) main_v2 main_c
  let main_v4 : FVec F S32x10 .f32 := Host.absf main_arg1
  let main_cst_0 : FVec F S_ .f32 := constant S_ .f32 0x7F800000#32
  let main_v5 : FVec F S32x10 .f32 := broadcastInDim S32x10 ![] bcast_S_S32x10 main_cst_0
  let main_v6 : IVec S32x10 1 := cmpf .olt main_v4 main_v5
  let main_c_1 : IVec S_ 1 := constantI S_ 1 1#1
  let main_v7 : IVec S_ 1 := (fun x v => Host.reduce IntOp.andi x v reducesTo_S32x10_S_d0_1 h_S_) main_v6 main_c_1
  let main_v8 : IVec S_ 1 := andi main_v3 main_v7
  main_v8
-- ==== Kernel.lean ====
abbrev S32x2048 : Shape := ⟨2, ![32, 2048]⟩
abbrev S32x10 : Shape := ⟨2, ![32, 10]⟩
abbrev S32 : Shape := ⟨1, ![32]⟩
abbrev S_ : Shape := ⟨0, ![]⟩
abbrev S32x1 : Shape := ⟨2, ![32, 1]⟩
abbrev S32x1x1 : Shape := ⟨3, ![32, 1, 1]⟩
abbrev S1 : Shape := ⟨1, ![1]⟩
abbrev S1x1x1 : Shape := ⟨3, ![1, 1, 1]⟩
abbrev S8x128 : Shape := ⟨2, ![8, 128]⟩
abbrev S8x256 : Shape := ⟨2, ![8, 256]⟩
abbrev S8x256x1 : Shape := ⟨3, ![8, 256, 1]⟩
abbrev S8x1x256 : Shape := ⟨3, ![8, 1, 256]⟩
abbrev S8x256x256 : Shape := ⟨3, ![8, 256, 256]⟩
abbrev S8 : Shape := ⟨1, ![8]⟩
abbrev S8x1 : Shape := ⟨2, ![8, 1]⟩
abbrev S1x8x1 : Shape := ⟨3, ![1, 8, 1]⟩
abbrev S1x1 : Shape := ⟨2, ![1, 1]⟩

abbrev nBuf : Space → Nat
  | .hbm => 54
  | .vmem => 6
  | .smem => 0
  | _ => 0

abbrev bufTy : (tb : Table) → Fin (tcTables nBuf tb) → BufTy
  | .hbm, ⟨0, _⟩ => ⟨S32x2048, .f32⟩
  | .hbm, ⟨1, _⟩ => ⟨S32x10, .f32⟩
  | .hbm, ⟨2, _⟩ => ⟨S32, .i32⟩
  | .hbm, ⟨3, _⟩ => ⟨S_, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S32x1, .f32⟩
  | .hbm, ⟨9, _⟩ => ⟨S32x10, .f32⟩
  | .hbm, ⟨10, _⟩ => ⟨S32x10, .f32⟩
  | .hbm, ⟨11, _⟩ => ⟨S32x10, .f32⟩
  | .hbm, ⟨12, _⟩ => ⟨S_, .f32⟩
  | .hbm, ⟨13, _⟩ => ⟨S32, .f32⟩
  | .hbm, ⟨14, _⟩ => ⟨S32x1, .f32⟩
  | .hbm, ⟨15, _⟩ => ⟨S32x1, .f32⟩
  | .hbm, ⟨16, _⟩ => ⟨S32x10, .f32⟩
  | .hbm, ⟨17, _⟩ => ⟨S32x10, .f32⟩
  | .hbm, ⟨18, _⟩ => ⟨S32x1, .i32⟩
  | .hbm, ⟨19, _⟩ => ⟨S_, .i32⟩
  | .hbm, ⟨20, _⟩ => ⟨S32x1, .i32⟩
  | .hbm, ⟨21, _⟩ => ⟨S32x1, .i1⟩
  | .hbm, ⟨22, _⟩ => ⟨S_, .i32⟩
  | .hbm, ⟨23, _⟩ => ⟨S32x1, .i32⟩
  | .hbm, ⟨24, _⟩ => ⟨S32x1, .i32⟩
  | .hbm, ⟨25, _⟩ => ⟨S32x1, .i32⟩
  | .hbm, ⟨26, _⟩ => ⟨S32x1x1, .i32⟩
  | .hbm, ⟨27, _⟩ => ⟨S1, .i32⟩
  | .hbm, ⟨28, _⟩ => ⟨S_, .i32⟩
  | .hbm, ⟨29, _⟩ => ⟨S32x1x1, .i32⟩
  | .hbm, ⟨30, _⟩ => ⟨S32x1x1, .i1⟩
  | .hbm, ⟨31, _⟩ => ⟨S1x1x1, .i32⟩
  | .hbm, ⟨32, _⟩ => ⟨S32x1x1, .i32⟩
  | .hbm, ⟨33, _⟩ => ⟨S32x1x1, .i1⟩
  | .hbm, ⟨34, _⟩ => ⟨S32x1x1, .i1⟩
  | .hbm, ⟨35, _⟩ => ⟨S_, .i1⟩
  | .hbm, ⟨36, _⟩ => ⟨S32x1, .i1⟩
  | .hbm, ⟨37, _⟩ => ⟨S32x1, .f32⟩
  | .hbm, ⟨38, _⟩ => ⟨S_, .f32⟩
  | .hbm, ⟨39, _⟩ => ⟨S32x1, .f32⟩
  | .hbm, ⟨40, _⟩ => ⟨S32x1, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S8x128, .f32⟩
  | .hbm, ⟨47, _⟩ => ⟨S1x1, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .local _ .vmem, ⟨0, _⟩ => ⟨S8x256, .f32⟩
  | .local _ .vmem, ⟨1, _⟩ => ⟨S8x256, .f32⟩
  | .local _ .vmem, ⟨2, _⟩ => ⟨S8x256, .f32⟩
  | .local _ .vmem, ⟨3, _⟩ => ⟨S8x256, .f32⟩
  | .local _ .vmem, ⟨4, _⟩ => ⟨S8x128, .f32⟩
  | .local _ .vmem, ⟨5, _⟩ => ⟨S8x128, .f32⟩
  | _, _ => ⟨S32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_call0_cst_0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_cst_1 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_v0 : Ref sig .tc := ⟨.hbm, 17, rfl⟩
abbrev main_v1 : Ref sig .tc := ⟨.hbm, 18, rfl⟩
abbrev main_call1_c : Ref sig .tc := ⟨.hbm, 19, rfl⟩
abbrev main_call1_v0 : Ref sig .tc := ⟨.hbm, 20, rfl⟩
abbrev main_call1_v1 : Ref sig .tc := ⟨.hbm, 21, rfl⟩
abbrev main_call1_c_0 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_c_1 : Ref sig .tc := ⟨.hbm, 27, rfl⟩
abbrev main_call1_c_2 : Ref sig .tc := ⟨.hbm, 28, rfl⟩
abbrev main_call1_v6 : Ref sig .tc := ⟨.hbm, 29, rfl⟩
abbrev main_call1_v7 : Ref sig .tc := ⟨.hbm, 30, rfl⟩
abbrev main_call1_v8 : Ref sig .tc := ⟨.hbm, 31, rfl⟩
abbrev main_call1_v9 : Ref sig .tc := ⟨.hbm, 32, rfl⟩
abbrev main_call1_v10 : Ref sig .tc := ⟨.hbm, 33, rfl⟩
abbrev main_call1_v11 : Ref sig .tc := ⟨.hbm, 34, rfl⟩
abbrev main_call1_c_3 : Ref sig .tc := ⟨.hbm, 35, rfl⟩
abbrev main_call1_v12 : Ref sig .tc := ⟨.hbm, 36, rfl⟩
abbrev main_call1_v13 : Ref sig .tc := ⟨.hbm, 37, rfl⟩
abbrev main_call1_cst : Ref sig .tc := ⟨.hbm, 38, rfl⟩
abbrev main_call1_v14 : Ref sig .tc := ⟨.hbm, 39, rfl⟩
abbrev main_v2 : Ref sig .tc := ⟨.hbm, 40, rfl⟩
abbrev main_cst : Ref sig .tc := ⟨.hbm, 41, rfl⟩
abbrev main_v3 : Ref sig .tc := ⟨.hbm, 42, rfl⟩
abbrev main_cst_0 : Ref sig .tc := ⟨.hbm, 43, rfl⟩
abbrev main_v4 : Ref sig .tc := ⟨.hbm, 44, rfl⟩
abbrev main_v5 : Ref sig .tc := ⟨.hbm, 45, rfl⟩
abbrev main_v6 : Ref sig .tc := ⟨.hbm, 46, rfl⟩
abbrev main_v7 : Ref sig .tc := ⟨.hbm, 47, rfl⟩
abbrev main_v8 : Ref sig .tc := ⟨.hbm, 48, rfl⟩
abbrev main_cst_1 : Ref sig .tc := ⟨.hbm, 49, rfl⟩
abbrev main_v9 : Ref sig .tc := ⟨.hbm, 50, rfl⟩
abbrev main_cst_2 : Ref sig .tc := ⟨.hbm, 51, rfl⟩
abbrev main_v10 : Ref sig .tc := ⟨.hbm, 52, rfl⟩
abbrev main_v11 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![4, 8, 8], ![false, false, false]⟩

def k0_cond2 (i : grid0.Coords) : BitVec 1 :=
  let arg0 : BitVec 32 := BitVec.ofNat 32 (i 0).val
  let c3_i32 : BitVec 32 := 3#32
  let v34 : BitVec 1 := Scalar.cmpi .eq arg0 c3_i32
  let arg1 : BitVec 32 := BitVec.ofNat 32 (i 1).val
  let c7_i32 : BitVec 32 := 7#32
  let v35 : BitVec 1 := Scalar.cmpi .eq arg1 c7_i32
  let v36 : BitVec 1 := Scalar.andi v34 v35
  let arg2 : BitVec 32 := BitVec.ofNat 32 (i 2).val
  let c7_i32_14 : BitVec 32 := 7#32
  let v37 : BitVec 1 := Scalar.cmpi .eq arg2 c7_i32_14
  let v38 : BitVec 1 := Scalar.andi v36 v37
  let v39 : BitVec 32 := Scalar.extui v38
  let c0_i32_15 : BitVec 32 := 0#32
  let v40 : BitVec 1 := Scalar.cmpi .ne v39 c0_i32_15
  v40

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

class Facts₀ : Prop where
  reducesTo_S32x10_S32_d1 : S32x10.ReducesTo [1] S32
  h_S_ : 0 < S_.numel
  bcast_S_S32 : S_.BroadcastsInDim S32 (![] : Fin 0 → Fin S32.rank)
  bcast_S32_S32x1_0 : S32.BroadcastsInDim S32x1 (![0] : Fin 1 → Fin S32x1.rank)
  bcast_S32x1_S32x10_0_1 : S32x1.BroadcastsInDim S32x10 (![0, 1] : Fin 2 → Fin S32x10.rank)
  bcast_S_S32x1 : S_.BroadcastsInDim S32x1 (![] : Fin 0 → Fin S32x1.rank)
  shapeCasts_S32x1_S32x1x1 : S32x1.ShapeCasts S32x1x1
  bcast_S_S32x1x1 : S_.BroadcastsInDim S32x1x1 (![] : Fin 0 → Fin S32x1x1.rank)
  bcast_S1_S1x1x1_2 : S1.BroadcastsInDim S1x1x1 (![2] : Fin 1 → Fin S1x1x1.rank)
  bcast_S1x1x1_S32x1x1_0_1_2 : S1x1x1.BroadcastsInDim S32x1x1 (![0, 1, 2] : Fin 3 → Fin S32x1x1.rank)
  reducesTo_S32x1x1_S32x1_d2 : S32x1x1.ReducesTo [2] S32x1
  reducesTo_S32x1_S_d0_1 : S32x1.ReducesTo [0, 1] S_
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S8x256_S8x256_0_0 : ∀ a, (![0, 0] : Fin 2 → Nat) a + S8x256.size a ≤ S8x256.size a
  h_S8x256 : 0 < S8x256.numel
  shapeCasts_S8x256_S8x256x1 : S8x256.ShapeCasts S8x256x1
  shapeCasts_S8x256_S8x1x256 : S8x256.ShapeCasts S8x1x256
  broadcasts_S8x256x1_S8x256x256 : S8x256x1.Broadcasts S8x256x256
  broadcasts_S8x1x256_S8x256x256 : S8x1x256.Broadcasts S8x256x256
  reduces_S8x256x256_S8x256 : S8x256x256.Reduces [2] S8x256
  reduces_S8x256_S8 : S8x256.Reduces [1] S8
  shapeCasts_S8_S8x1 : S8.ShapeCasts S8x1
  shapeCasts_S8x1_S1x8x1 : S8x1.ShapeCasts S1x8x1
  reduces_S1x8x1_S1 : S1x8x1.Reduces [1, 2] S1
  shapeCasts_S1_S1x1x1 : S1.ShapeCasts S1x1x1
  inpos_S1x1x1_p0_0_0 : ∀ a, (![0, 0, 0] : Fin 3 → Nat) a < S1x1x1.size a
  slices_S8x128_S1x1_0_0 : S8x128.Slices ![0, 0] S1x1
  shapeCasts_S1x1_S_ : S1x1.ShapeCasts S_
  gather_S32x10_S32x1x1_S32x1_n_1_0_0_1_2_11_wf : GatherDims.WF S32x10 S32x1x1 S32x1 [] [1] [0] [1] [0] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256.size a ≤ S32x2048.size a
  hwx0_0 : ∀ i : grid0.Coords, EltTy.bits .f32 = 32 ∨ (Rect.block (s := S32x2048) S8x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256.size a ≤ S32x2048.size a
  hwx0_1 : ∀ i : grid0.Coords, EltTy.bits .f32 = 32 ∨ (Rect.block (s := S32x2048) S8x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S8x128.size a
  hwx0_2 : ∀ i : grid0.Coords, EltTy.bits .f32 = 32 ∨ (Rect.block (s := S8x128) S8x128.size (cc0_transform_2 i) (hinb0_2 i)).WholeWords (EltTy.packing .f32)

variable [Facts₀]

def gather_S32x10_S32x1x1_S32x1_n_1_0_0_1_2_11 : GatherDims S32x10 S32x1x1 S32x1 where
  offsetDims := []
  collapsedSliceDims := [1]
  operandBatchingDims := [0]
  startIndicesBatchingDims := [0]
  startIndexMap := [1]
  indexVectorDim := 2
  sliceSizes := ![1, 1]
  wf := gather_S32x10_S32x1x1_S32x1_n_1_0_0_1_2_11_wf

abbrev win0_0 : Pipeline.Window sig grid0 :=
  Pipeline.Window.ofSpec (Memref.whole main_arg0) S8x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S8x128.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S32x2048 : Shape := ⟨2, ![32, 2048]⟩
abbrev S32x10 : Shape := ⟨2, ![32, 10]⟩
abbrev S32 : Shape := ⟨1, ![32]⟩
abbrev S_ : Shape := ⟨0, ![]⟩
abbrev S32x1 : Shape := ⟨2, ![32, 1]⟩
abbrev S32x1x1 : Shape := ⟨3, ![32, 1, 1]⟩
abbrev S1 : Shape := ⟨1, ![1]⟩
abbrev S1x1x1 : Shape := ⟨3, ![1, 1, 1]⟩
abbrev S32x2048x1 : Shape := ⟨3, ![32, 2048, 1]⟩
abbrev S32x1x2048 : Shape := ⟨3, ![32, 1, 2048]⟩
abbrev S32x2048x2048 : Shape := ⟨3, ![32, 2048, 2048]⟩

abbrev nBuf : Space → Nat
  | .hbm => 66
  | .vmem => 0
  | .smem => 0
  | _ => 0

abbrev bufTy : (tb : Table) → Fin (tcTables nBuf tb) → BufTy
  | .hbm, ⟨0, _⟩ => ⟨S32x2048, .f32⟩
  | .hbm, ⟨1, _⟩ => ⟨S32x10, .f32⟩
  | .hbm, ⟨2, _⟩ => ⟨S32, .i32⟩
  | .hbm, ⟨3, _⟩ => ⟨S_, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S32x1, .f32⟩
  | .hbm, ⟨9, _⟩ => ⟨S32x10, .f32⟩
  | .hbm, ⟨10, _⟩ => ⟨S32x10, .f32⟩
  | .hbm, ⟨11, _⟩ => ⟨S32x10, .f32⟩
  | .hbm, ⟨12, _⟩ => ⟨S_, .f32⟩
  | .hbm, ⟨13, _⟩ => ⟨S32, .f32⟩
  | .hbm, ⟨14, _⟩ => ⟨S32x1, .f32⟩
  | .hbm, ⟨15, _⟩ => ⟨S32x1, .f32⟩
  | .hbm, ⟨16, _⟩ => ⟨S32x10, .f32⟩
  | .hbm, ⟨17, _⟩ => ⟨S32x10, .f32⟩
  | .hbm, ⟨18, _⟩ => ⟨S32x1, .i32⟩
  | .hbm, ⟨19, _⟩ => ⟨S_, .i32⟩
  | .hbm, ⟨20, _⟩ => ⟨S32x1, .i32⟩
  | .hbm, ⟨21, _⟩ => ⟨S32x1, .i1⟩
  | .hbm, ⟨22, _⟩ => ⟨S_, .i32⟩
  | .hbm, ⟨23, _⟩ => ⟨S32x1, .i32⟩
  | .hbm, ⟨24, _⟩ => ⟨S32x1, .i32⟩
  | .hbm, ⟨25, _⟩ => ⟨S32x1, .i32⟩
  | .hbm, ⟨26, _⟩ => ⟨S32x1x1, .i32⟩
  | .hbm, ⟨27, _⟩ => ⟨S1, .i32⟩
  | .hbm, ⟨28, _⟩ => ⟨S_, .i32⟩
  | .hbm, ⟨29, _⟩ => ⟨S32x1x1, .i32⟩
  | .hbm, ⟨30, _⟩ => ⟨S32x1x1, .i1⟩
  | .hbm, ⟨31, _⟩ => ⟨S1x1x1, .i32⟩
  | .hbm, ⟨32, _⟩ => ⟨S32x1x1, .i32⟩
  | .hbm, ⟨33, _⟩ => ⟨S32x1x1, .i1⟩
  | .hbm, ⟨34, _⟩ => ⟨S32x1x1, .i1⟩
  | .hbm, ⟨35, _⟩ => ⟨S_, .i1⟩
  | .hbm, ⟨36, _⟩ => ⟨S32x1, .i1⟩
  | .hbm, ⟨37, _⟩ => ⟨S32x1, .f32⟩
  | .hbm, ⟨38, _⟩ => ⟨S_, .f32⟩
  | .hbm, ⟨39, _⟩ => ⟨S32x1, .f32⟩
  | .hbm, ⟨40, _⟩ => ⟨S32x1, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S32x2048, .f32⟩
  | .hbm, ⟨48, _⟩ => ⟨S32x2048, .f32⟩
  | .hbm, ⟨49, _⟩ => ⟨S32x2048, .f32⟩
  | .hbm, ⟨50, _⟩ => ⟨S32x2048x1, .f32⟩
  | .hbm, ⟨51, _⟩ => ⟨S32x1x2048, .f32⟩
  | .hbm, ⟨52, _⟩ => ⟨S32x2048x2048, .f32⟩
  | .hbm, ⟨53, _⟩ => ⟨S32x2048x2048, .f32⟩
  | .hbm, ⟨54, _⟩ => ⟨S32x2048x2048, .f32⟩
  | .hbm, ⟨55, _⟩ => ⟨S32x2048x2048, .f32⟩
  | .hbm, ⟨56, _⟩ => ⟨S_, .f32⟩
  | .hbm, ⟨57, _⟩ => ⟨S32, .f32⟩
  | .hbm, ⟨58, _⟩ => ⟨S_, .f32⟩
  | .hbm, ⟨59, _⟩ => ⟨S32, .f32⟩
  | .hbm, ⟨60, _⟩ => ⟨S32, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | _, _ => ⟨S32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_call0_cst_0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_cst_1 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_v0 : Ref sig .tc := ⟨.hbm, 17, rfl⟩
abbrev main_v1 : Ref sig .tc := ⟨.hbm, 18, rfl⟩
abbrev main_call1_c : Ref sig .tc := ⟨.hbm, 19, rfl⟩
abbrev main_call1_v0 : Ref sig .tc := ⟨.hbm, 20, rfl⟩
abbrev main_call1_v1 : Ref sig .tc := ⟨.hbm, 21, rfl⟩
abbrev main_call1_c_0 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_c_1 : Ref sig .tc := ⟨.hbm, 27, rfl⟩
abbrev main_call1_c_2 : Ref sig .tc := ⟨.hbm, 28, rfl⟩
abbrev main_call1_v6 : Ref sig .tc := ⟨.hbm, 29, rfl⟩
abbrev main_call1_v7 : Ref sig .tc := ⟨.hbm, 30, rfl⟩
abbrev main_call1_v8 : Ref sig .tc := ⟨.hbm, 31, rfl⟩
abbrev main_call1_v9 : Ref sig .tc := ⟨.hbm, 32, rfl⟩
abbrev main_call1_v10 : Ref sig .tc := ⟨.hbm, 33, rfl⟩
abbrev main_call1_v11 : Ref sig .tc := ⟨.hbm, 34, rfl⟩
abbrev main_call1_c_3 : Ref sig .tc := ⟨.hbm, 35, rfl⟩
abbrev main_call1_v12 : Ref sig .tc := ⟨.hbm, 36, rfl⟩
abbrev main_call1_v13 : Ref sig .tc := ⟨.hbm, 37, rfl⟩
abbrev main_call1_cst : Ref sig .tc := ⟨.hbm, 38, rfl⟩
abbrev main_call1_v14 : Ref sig .tc := ⟨.hbm, 39, rfl⟩
abbrev main_v2 : Ref sig .tc := ⟨.hbm, 40, rfl⟩
abbrev main_cst : Ref sig .tc := ⟨.hbm, 41, rfl⟩
abbrev main_v3 : Ref sig .tc := ⟨.hbm, 42, rfl⟩
abbrev main_cst_0 : Ref sig .tc := ⟨.hbm, 43, rfl⟩
abbrev main_v4 : Ref sig .tc := ⟨.hbm, 44, rfl⟩
abbrev main_v5 : Ref sig .tc := ⟨.hbm, 45, rfl⟩
abbrev main_cst_1 : Ref sig .tc := ⟨.hbm, 46, rfl⟩
abbrev main_v6 : Ref sig .tc := ⟨.hbm, 47, rfl⟩
abbrev main_v7 : Ref sig .tc := ⟨.hbm, 48, rfl⟩
abbrev main_v8 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_cst_2 : Ref sig .tc := ⟨.hbm, 56, rfl⟩
abbrev main_v15 : Ref sig .tc := ⟨.hbm, 57, rfl⟩
abbrev main_cst_3 : Ref sig .tc := ⟨.hbm, 58, rfl⟩
abbrev main_v16 : Ref sig .tc := ⟨.hbm, 59, rfl⟩
abbrev main_v17 : Ref sig .tc := ⟨.hbm, 60, rfl⟩
abbrev main_cst_4 : Ref sig .tc := ⟨.hbm, 61, rfl⟩
abbrev main_v18 : Ref sig .tc := ⟨.hbm, 62, rfl⟩
abbrev main_cst_5 : Ref sig .tc := ⟨.hbm, 63, rfl⟩
abbrev main_v19 : Ref sig .tc := ⟨.hbm, 64, rfl⟩
abbrev main_v20 : Ref sig .tc := ⟨.hbm, 65, rfl⟩

abbrev nD : Nat := 1
abbrev τ : Topo := Topo.v7x

variable {F : FTy → Type} [FloatOps F]

class Facts₀ : Prop where
  reducesTo_S32x10_S32_d1 : S32x10.ReducesTo [1] S32
  h_S_ : 0 < S_.numel
  bcast_S_S32 : S_.BroadcastsInDim S32 (![] : Fin 0 → Fin S32.rank)
  bcast_S32_S32x1_0 : S32.BroadcastsInDim S32x1 (![0] : Fin 1 → Fin S32x1.rank)
  bcast_S32x1_S32x10_0_1 : S32x1.BroadcastsInDim S32x10 (![0, 1] : Fin 2 → Fin S32x10.rank)
  bcast_S_S32x1 : S_.BroadcastsInDim S32x1 (![] : Fin 0 → Fin S32x1.rank)
  shapeCasts_S32x1_S32x1x1 : S32x1.ShapeCasts S32x1x1
  bcast_S_S32x1x1 : S_.BroadcastsInDim S32x1x1 (![] : Fin 0 → Fin S32x1x1.rank)
  bcast_S1_S1x1x1_2 : S1.BroadcastsInDim S1x1x1 (![2] : Fin 1 → Fin S1x1x1.rank)
  bcast_S1x1x1_S32x1x1_0_1_2 : S1x1x1.BroadcastsInDim S32x1x1 (![0, 1, 2] : Fin 3 → Fin S32x1x1.rank)
  reducesTo_S32x1x1_S32x1_d2 : S32x1x1.ReducesTo [2] S32x1
  reducesTo_S32x1_S_d0_1 : S32x1.ReducesTo [0, 1] S_
  bcast_S_S32x2048 : S_.BroadcastsInDim S32x2048 (![] : Fin 0 → Fin S32x2048.rank)
  bcast_S32x2048_S32x2048x1_0_1 : S32x2048.BroadcastsInDim S32x2048x1 (![0, 1] : Fin 2 → Fin S32x2048x1.rank)
  bcast_S32x2048_S32x1x2048_0_2 : S32x2048.BroadcastsInDim S32x1x2048 (![0, 2] : Fin 2 → Fin S32x1x2048.rank)
  bcast_S32x2048x1_S32x2048x2048_0_1_2 : S32x2048x1.BroadcastsInDim S32x2048x2048 (![0, 1, 2] : Fin 3 → Fin S32x2048x2048.rank)
  bcast_S32x1x2048_S32x2048x2048_0_1_2 : S32x1x2048.BroadcastsInDim S32x2048x2048 (![0, 1, 2] : Fin 3 → Fin S32x2048x2048.rank)
  reducesTo_S32x2048x2048_S32_d1_2 : S32x2048x2048.ReducesTo [1, 2] S32
  reducesTo_S32_S_d0 : S32.ReducesTo [0] S_
  gather_S32x10_S32x1x1_S32x1_n_1_0_0_1_2_11_wf : GatherDims.WF S32x10 S32x1x1 S32x1 [] [1] [0] [1] [0] 2 ![1, 1]

variable [Facts₀]

def gather_S32x10_S32x1x1_S32x1_n_1_0_0_1_2_11 : GatherDims S32x10 S32x1x1 S32x1 where
  offsetDims := []
  collapsedSliceDims := [1]
  operandBatchingDims := [0]
  startIndicesBatchingDims := [0]
  startIndexMap := [1]
  indexVectorDim := 2
  sliceSizes := ![1, 1]
  wf := gather_S32x10_S32x1x1_S32x1_n_1_0_0_1_2_11_wf

class Facts : Prop extends Facts₀ where

variable [Facts]
-- ==== Proof.RefFrame.lean ====
/-
  The reference program's frame. The reference is a straight-line host program: its run is the composition
  of its operations, so every weakly fair execution ends, faults nowhere, and writes only its own
  intermediate buffers; the three argument arrays are left as they were.
-/
import proofs.«109390_j23502061044472_2_alg».proof.Defs
import proofs.«109390_j23502061044472_2_alg».proof.Proof.Gen.ReferenceIdeal.Run
import proofs.«109390_j23502061044472_2_alg».proof.Proof.Gen.ReferenceIdeal.Read
import proofs.«109390_j23502061044472_2_alg».proof.Proof.Gen.Pre_finite_inputs

noncomputable section

namespace Cert.Proof.Gini

open Idealize.ShloMosaic Idealize.ShloMosaic.TcCoe Idealize.SL.Sem

/-- The reference terminates without a fault and keeps its arguments: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

end Cert.Proof.Gini

end
-- ==== Proof.Spec.lean ====
/-
  The quantities both programs compute, as plain functions on the extended reals.

  Every attention entry `v` is first turned into `log (v + ε)`; within a row of 2048 entries all ordered
  pairs' absolute differences of these logarithms are summed (`rowGap`). The kernel adds up all 32 rows'
  sums and divides once by `2·2048²` (`infoK`); the reference divides each row's sum and adds the 32
  quotients (`infoR`). The grid of the kernel visits 4·8·8 points; at a point it sees 8 rows, 256 "left"
  columns and 256 "right" columns and contributes `pointGap`. The loss is the cross-entropy term minus
  one half of the information term (`combine`).
-/
import Idealize.ShloMosaic.PureOps.Ideal
import Idealize.ShloMosaic.PureOps.Ideal.Laws
import Idealize.ShloMosaic.Lib.ValueIdx

noncomputable section

namespace Cert.Proof.Gini

open Idealize.ShloMosaic Idealize.ShloMosaic.ValueIdx

/-- The small positive literal added before the logarithm, as the extended real its f32 word denotes. -/
def eps : EReal := Ideal.ofBits .f32 0x358637BD#32

/-- The divisor `2·2048²`, as the extended real its f32 word denotes. -/
def den : EReal := Ideal.ofBits .f32 0x4B000000#32

/-- One half, as the extended real its f32 word denotes. -/
def half : EReal := Ideal.ofBits .f32 0x3F000000#32

/-- An entry's logarithm after the shift by `ε`. -/
def lx (v : EReal) : EReal := Ideal.log (v + eps)

/-- The absolute difference of two entries' shifted logarithms (`|a| = max a (-a)` on the extended reals). -/
def gap (u v : EReal) : EReal := max (lx u - lx v) (-(lx u - lx v))

/-- All ordered pairs' gaps within row `b` of a 32 × 2048 array. -/
def rowGap (att : (⟨2, ![32, 2048]⟩ : Shape).Idx → EReal) (b : Fin 32) : EReal :=
  ∑ i : Fin 2048, ∑ j : Fin 2048, gap (att (ix2 b i)) (att (ix2 b j))

/-- The kernel's information term: the rows' sums added, then divided once. -/
def infoK (att : (⟨2, ![32, 2048]⟩ : Shape).Idx → EReal) : EReal := Ideal.div (∑ b : Fin 32, rowGap att b) den

/-- The reference's information term: each row's sum divided, then the quotients added. -/
def infoR (att : (⟨2, ![32, 2048]⟩ : Shape).Idx → EReal) : EReal := ∑ b : Fin 32, Ideal.div (rowGap att b) den

/-- What one grid point adds: over its 8 rows, the gaps between its 256 left and its 256 right columns. -/
def pointGap (x0 x1 : (⟨2, ![8, 256]⟩ : Shape).Idx → EReal) : EReal :=
  ∑ b : Fin 8, ∑ i : Fin 256, ∑ j : Fin 256, gap (x0 (ix2 b i)) (x1 (ix2 b j))

/-- The loss from its two terms: the cross-entropy term minus half the information term. -/
def combine (p q : EReal) : EReal := p - half * q

end Cert.Proof.Gini

end
-- ==== Proof.Pred.lean ====
/-
  The cross-entropy term of the loss, named once.

  It is the first term of the loss, a function of the logits (a 32 × 10 array) and the labels (32 integers):
  each row's log-softmax is read at the position its label selects, the 32 readings are added, and the sum is
  divided by 32 and negated.
-/
import proofs.«109390_j23502061044472_2_alg».proof.Proof.Gen.ReferenceIdeal
import Idealize.ShloMosaic.PureOps.Ideal

noncomputable section

namespace Cert.Proof.Gini

open Cert.ReferenceIdeal Cert.ReferenceIdeal.Gen Idealize.ShloMosaic

/-- The cross-entropy term as a function of the logits `lg` and the labels `lb`: minus one thirty-second of
    the sum, over the 32 rows, of the row's log-softmax read where the row's label selects. -/
def predRef (lg : (⟨Cert.ReferenceIdeal.S32x10, .f32⟩ : BufTy).Contents (Elt Ideal))
    (lb : (⟨Cert.ReferenceIdeal.S32, .i32⟩ : BufTy).Contents (Elt Ideal)) :
    (⟨Cert.ReferenceIdeal.S_, .f32⟩ : BufTy).Contents (Elt Ideal) :=
  Host.negf (F := Ideal) (Host.divf (F := Ideal) (Host.reduceAdd (F := Ideal) (select (Host.reduce IntOp.andi (andi (cmpi .sge (shapeCast _ (select (cmpi .slt (broadcastInDim S32x1 ![0] bcast_S32_S32x1_0 lb) (broadcastInDim S32x1 ![] bcast_S_S32x1 (constantI S_ 32 0#32))) (addi (broadcastInDim S32x1 ![0] bcast_S32_S32x1_0 lb) (broadcastInDim S32x1 ![] bcast_S_S32x1 (constantI S_ 32 10#32))) (broadcastInDim S32x1 ![0] bcast_S32_S32x1_0 lb)) shapeCasts_S32x1_S32x1x1) (broadcastInDim S32x1x1 ![] bcast_S_S32x1x1 (constantI S_ 32 0#32))) (cmpi .sle (shapeCast _ (select (cmpi .slt (broadcastInDim S32x1 ![0] bcast_S32_S32x1_0 lb) (broadcastInDim S32x1 ![] bcast_S_S32x1 (constantI S_ 32 0#32))) (addi (broadcastInDim S32x1 ![0] bcast_S32_S32x1_0 lb) (broadcastInDim S32x1 ![] bcast_S_S32x1 (constantI S_ 32 10#32))) (broadcastInDim S32x1 ![0] bcast_S32_S32x1_0 lb)) shapeCasts_S32x1_S32x1x1) (broadcastInDim S32x1x1 ![0, 1, 2] bcast_S1x1x1_S32x1x1_0_1_2 (broadcastInDim S1x1x1 ![2] bcast_S1_S1x1x1_2 (constantI S1 32 9#32))))) (constantI S_ 1 1#1) reducesTo_S32x1x1_S32x1_d2 h_S_) (Host.gather gather_S32x10_S32x1x1_S32x1_n_1_0_0_1_2_11 (subf (F := Ideal) (subf (F := Ideal) lg (broadcastInDim S32x10 ![0, 1] bcast_S32x1_S32x10_0_1 (broadcastInDim S32x1 ![0] bcast_S32_S32x1_0 (maximumf (F := Ideal) (broadcastInDim S32 ![] bcast_S_S32 (constant (F := Ideal) S_ .f32 0xFF800000#32)) (Host.reduce (FloatOps.maximumf (F := Ideal)) lg (constant (F := Ideal) S_ .f32 0xFF800000#32) reducesTo_S32x10_S32_d1 h_S_))))) (broadcastInDim S32x10 ![0, 1] bcast_S32x1_S32x10_0_1 (Host.log (F := Ideal) (broadcastInDim S32x1 ![0] bcast_S32_S32x1_0 (Host.reduceAdd (F := Ideal) (Host.exp (F := Ideal) (subf (F := Ideal) lg (broadcastInDim S32x10 ![0, 1] bcast_S32x1_S32x10_0_1 (broadcastInDim S32x1 ![0] bcast_S32_S32x1_0 (maximumf (F := Ideal) (broadcastInDim S32 ![] bcast_S_S32 (constant (F := Ideal) S_ .f32 0xFF800000#32)) (Host.reduce (FloatOps.maximumf (F := Ideal)) lg (constant (F := Ideal) S_ .f32 0xFF800000#32) reducesTo_S32x10_S32_d1 h_S_)))))) (constant (F := Ideal) S_ .f32 0x00000000#32) reducesTo_S32x10_S32_d1 h_S_))))) (shapeCast _ (select (cmpi .slt (broadcastInDim S32x1 ![0] bcast_S32_S32x1_0 lb) (broadcastInDim S32x1 ![] bcast_S_S32x1 (constantI S_ 32 0#32))) (addi (broadcastInDim S32x1 ![0] bcast_S32_S32x1_0 lb) (broadcastInDim S32x1 ![] bcast_S_S32x1 (constantI S_ 32 10#32))) (broadcastInDim S32x1 ![0] bcast_S32_S32x1_0 lb)) shapeCasts_S32x1_S32x1x1)) (broadcastInDim S32x1 ![] bcast_S_S32x1 (constant (F := Ideal) S_ .f32 0x7FC00000#32))) (constant (F := Ideal) S_ .f32 0x00000000#32) reducesTo_S32x1_S_d0_1 h_S_) (constant (F := Ideal) S_ .f32 0x42000000#32))

end Cert.Proof.Gini

end
-- ==== Proof.RefValue.lean ====
/-
  The reference's result is the specification.

  The reference computes the loss as the cross-entropy term minus one half of the information term. Its
  information term is built from the 32 × 2048 array `x` as follows: `y = log (x + ε)`; the 32 × 2048 × 2048
  array of `|y[b,i] - y[b,j]|`; its sum over the last two axes, a row of 32 numbers; each divided by `2·2048²`;
  the 32 quotients added. Read at its one index this is `infoR x`: the sum over a row's fibre of the rank-3
  index set is the double sum over `(i, j)`, every initial value of a sum is zero, and the absolute value on
  the extended reals is `max a (-a)`.
-/
import proofs.«109390_j23502061044472_2_alg».proof.Proof.Spec
import proofs.«109390_j23502061044472_2_alg».proof.Proof.Pred
import proofs.«109390_j23502061044472_2_alg».proof.Proof.Gen.ReferenceIdeal.Run
import proofs.«109390_j23502061044472_2_alg».proof.Proof.Gen.ReferenceIdeal.Read

noncomputable section

namespace Cert.Proof.Gini

open Cert.ReferenceIdeal Cert.ReferenceIdeal.Gen Cert.ReferenceIdeal.Read
open Idealize.ShloMosaic Idealize.ShloMosaic.TcCoe Idealize.SL.Sem Idealize.ShloMosaic.StableHlo Idealize.ShloMosaic.ValueIdx
open scoped BigOperators

/-! ## Sums over index sets of rank one and three -/

/-- A rank-1 index set is its coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## The sum over the last two axes of a 32 × 2048 × 2048 array -/

/-- Dropping the last two coordinates of `(a, p, q)` gives row `b` exactly when `a = b`. -/
theorem drop_rows (h : S32x2048x2048.ReducesTo [1, 2] S32) (a b : Fin 32) (p q : Fin 2048) :
    h.drop (ix3 a p q) = ix1 b ↔ a = b := by
  simp [funext_iff, Fin.ext_iff, Fin.forall_fin_one, h.drop_apply_val_of_eq (ix3 a p q) 0 0]

/-- The sum over axes 1 and 2, read at row `b`: the initial value plus the double sum over `(p, q)` of the
    array at `(b, p, q)`. -/
theorem hostReduceAdd_rows (h : S32x2048x2048.ReducesTo [1, 2] S32) (x : S32x2048x2048.Idx → EReal) (init : EReal)
    (b : Fin 32) :
    Ideal.hostReduceAdd h x init (ix1 b) = init + ∑ p : Fin 2048, ∑ q : Fin 2048, x (ix3 b p q) := by
  unfold Ideal.hostReduceAdd
  refine congrArg (init + ·) ?_
  rw [Finset.sum_filter, sum_idx3]
  simp only [drop_rows h]
  rw [Finset.sum_eq_single b (fun a _ hab => by simp [hab]) (fun hb => absurd (Finset.mem_univ b) hb)]
  simp

/-- The reference's row sums at row `b`: zero's word plus the double sum of the absolute differences. -/
theorem val_main_v15_apply (x0 : (⟨S32x2048, .f32⟩ : BufTy).Contents (Elt Ideal)) (b : Fin 32) :
    val_main_v15 (F := Ideal) x0 (ix1 b)
      = val_main_cst_2 (F := Ideal) (Shape.Idx.first h_S_)
        + ∑ p : Fin 2048, ∑ q : Fin 2048, val_main_v14 (F := Ideal) x0 (ix3 b p q) := by
  unfold val_main_v15
  generalize val_main_v14 (F := Ideal) x0 = y0
  simp only [Host.reduceAdd, Ideal.hostReduceAdd_def]
  exact hostReduceAdd_rows _ y0 _ b

/-! ## One absolute difference -/

/-- The left operand of the difference at `(b, p, q)` is read from the logarithms at `(b, p)`. -/
theorem idx_left (b : Fin 32) (p q : Fin 2048) : idx_main_v9 (idx_main_v11 (ix3 b p q)) = ix2 b p :=
  funext fun a => Fin.ext (by match a with | ⟨0, _⟩ => rfl | ⟨1, _⟩ => rfl)

/-- The right operand of the difference at `(b, p, q)` is read from the logarithms at `(b, q)`. -/
theorem idx_right (b : Fin 32) (p q : Fin 2048) : idx_main_v10 (idx_main_v12 (ix3 b p q)) = ix2 b q :=
  funext fun a => Fin.ext (by match a with | ⟨0, _⟩ => rfl | ⟨1, _⟩ => rfl)

/-- The array of logarithms at an index is `log (x + ε)` of the entry there. -/
theorem val_main_v8_eq (x0 : (⟨S32x2048, .f32⟩ : BufTy).Contents (Elt Ideal)) (i : S32x2048.Idx) :
    val_main_v8 (F := Ideal) x0 i = lx (x0 i) := by
  rw [val_main_v8_apply, val_main_v7_apply, val_main_v6_apply, val_main_cst_1_apply]
  rfl

/-- The array of absolute differences at `(b, p, q)` is the gap between the entries at `(b, p)` and `(b, q)`. -/
theorem val_main_v14_eq (x0 : (⟨S32x2048, .f32⟩ : BufTy).Contents (Elt Ideal)) (b : Fin 32) (p q : Fin 2048) :
    val_main_v14 (F := Ideal) x0 (ix3 b p q) = gap (x0 (ix2 b p)) (x0 (ix2 b q)) := by
  rw [val_main_v14_apply, val_main_v13_apply, val_main_v11_apply, val_main_v12_apply, val_main_v9_apply,
    val_main_v10_apply, idx_left, idx_right, val_main_v8_eq, val_main_v8_eq]
  rfl

/-! ## The information term -/

/-- Row `b`'s quotient: the row's sum of gaps divided by `2·2048²`. -/
theorem val_main_v17_eq (x0 : (⟨S32x2048, .f32⟩ : BufTy).Contents (Elt Ideal)) (b : Fin 32) :
    val_main_v17 (F := Ideal) x0 (ix1 b) = Ideal.div (rowGap x0 b) den := by
  rw [val_main_v17_apply, val_main_v15_apply, val_main_cst_2_apply, val_main_v16_apply, val_main_cst_3_apply,
    Ideal.hostDivf_def, Ideal.ofBits_def, Ideal.ofBits_def, Ideal.ofBits_zero_f32, zero_add]
  simp only [val_main_v14_eq]
  rfl

/-- The 32 quotients added: the reference's information term. -/
theorem info_eq (x0 : (⟨S32x2048, .f32⟩ : BufTy).Contents (Elt Ideal)) (i : S_.Idx) :
    val_main_v18 (F := Ideal) x0 i = infoR x0 := by
  rw [val_main_v18_apply, val_main_cst_4_apply, Ideal.ofBits_def, Ideal.ofBits_zero_f32, zero_add, sum_idx1]
  simp only [val_main_v17_eq]
  rfl

/-! ## The loss -/

/-- The reference's first term is the cross-entropy term. -/
theorem pred_eq (lg : (⟨S32x10, .f32⟩ : BufTy).Contents (Elt Ideal)) (lb : (⟨S32, .i32⟩ : BufTy).Contents (Elt Ideal)) :
    val_main_v5 (F := Ideal) lg lb = predRef lg lb := rfl

/-- The reference's last value: the cross-entropy term minus one half of the information term. -/
theorem ref_value_eq (att : (⟨S32x2048, .f32⟩ : BufTy).Contents (Elt Ideal))
    (lg : (⟨S32x10, .f32⟩ : BufTy).Contents (Elt Ideal)) (lb : (⟨S32, .i32⟩ : BufTy).Contents (Elt Ideal)) :
    val_main_v20 (F := Ideal) att lg lb = fun _ => combine (predRef lg lb ix0) (infoR att) := by
  funext i
  rw [val_main_v20_apply, val_main_v19_apply, val_main_cst_5_apply, info_eq, pred_eq, eq_ix0 i]
  rfl

/-- The same of the reference's composed term, as its run states it, of the three argument arrays. -/
theorem ref_term_eq (att : (⟨S32x2048, .f32⟩ : BufTy).Contents (Elt Ideal))
    (lg : (⟨S32x10, .f32⟩ : BufTy).Contents (Elt Ideal)) (lb : (⟨S32, .i32⟩ : BufTy).Contents (Elt Ideal)) :
    subf (F := Ideal) (Host.negf (F := Ideal) (Host.divf (F := Ideal) (Host.reduceAdd (F := Ideal) (select (Host.reduce IntOp.andi (andi (cmpi .sge (shapeCast _ (select (cmpi .slt (broadcastInDim S32x1 ![0] bcast_S32_S32x1_0 lb) (broadcastInDim S32x1 ![] bcast_S_S32x1 (constantI S_ 32 0#32))) (addi (broadcastInDim S32x1 ![0] bcast_S32_S32x1_0 lb) (broadcastInDim S32x1 ![] bcast_S_S32x1 (constantI S_ 32 10#32))) (broadcastInDim S32x1 ![0] bcast_S32_S32x1_0 lb)) shapeCasts_S32x1_S32x1x1) (broadcastInDim S32x1x1 ![] bcast_S_S32x1x1 (constantI S_ 32 0#32))) (cmpi .sle (shapeCast _ (select (cmpi .slt (broadcastInDim S32x1 ![0] bcast_S32_S32x1_0 lb) (broadcastInDim S32x1 ![] bcast_S_S32x1 (constantI S_ 32 0#32))) (addi (broadcastInDim S32x1 ![0] bcast_S32_S32x1_0 lb) (broadcastInDim S32x1 ![] bcast_S_S32x1 (constantI S_ 32 10#32))) (broadcastInDim S32x1 ![0] bcast_S32_S32x1_0 lb)) shapeCasts_S32x1_S32x1x1) (broadcastInDim S32x1x1 ![0, 1, 2] bcast_S1x1x1_S32x1x1_0_1_2 (broadcastInDim S1x1x1 ![2] bcast_S1_S1x1x1_2 (constantI S1 32 9#32))))) (constantI S_ 1 1#1) reducesTo_S32x1x1_S32x1_d2 h_S_) (Host.gather gather_S32x10_S32x1x1_S32x1_n_1_0_0_1_2_11 (subf (F := Ideal) (subf (F := Ideal) lg (broadcastInDim S32x10 ![0, 1] bcast_S32x1_S32x10_0_1 (broadcastInDim S32x1 ![0] bcast_S32_S32x1_0 (maximumf (F := Ideal) (broadcastInDim S32 ![] bcast_S_S32 (constant (F := Ideal) S_ .f32 0xFF800000#32)) (Host.reduce (FloatOps.maximumf (F := Ideal)) lg (constant (F := Ideal) S_ .f32 0xFF800000#32) reducesTo_S32x10_S32_d1 h_S_))))) (broadcastInDim S32x10 ![0, 1] bcast_S32x1_S32x10_0_1 (Host.log (F := Ideal) (broadcastInDim S32x1 ![0] bcast_S32_S32x1_0 (Host.reduceAdd (F := Ideal) (Host.exp (F := Ideal) (subf (F := Ideal) lg (broadcastInDim S32x10 ![0, 1] bcast_S32x1_S32x10_0_1 (broadcastInDim S32x1 ![0] bcast_S32_S32x1_0 (maximumf (F := Ideal) (broadcastInDim S32 ![] bcast_S_S32 (constant (F := Ideal) S_ .f32 0xFF800000#32)) (Host.reduce (FloatOps.maximumf (F := Ideal)) lg (constant (F := Ideal) S_ .f32 0xFF800000#32) reducesTo_S32x10_S32_d1 h_S_)))))) (constant (F := Ideal) S_ .f32 0x00000000#32) reducesTo_S32x10_S32_d1 h_S_))))) (shapeCast _ (select (cmpi .slt (broadcastInDim S32x1 ![0] bcast_S32_S32x1_0 lb) (broadcastInDim S32x1 ![] bcast_S_S32x1 (constantI S_ 32 0#32))) (addi (broadcastInDim S32x1 ![0] bcast_S32_S32x1_0 lb) (broadcastInDim S32x1 ![] bcast_S_S32x1 (constantI S_ 32 10#32))) (broadcastInDim S32x1 ![0] bcast_S32_S32x1_0 lb)) shapeCasts_S32x1_S32x1x1)) (broadcastInDim S32x1 ![] bcast_S_S32x1 (constant (F := Ideal) S_ .f32 0x7FC00000#32))) (constant (F := Ideal) S_ .f32 0x00000000#32) reducesTo_S32x1_S_d0_1 h_S_) (constant (F := Ideal) S_ .f32 0x42000000#32))) (mulf (F := Ideal) (constant (F := Ideal) S_ .f32 0x3F000000#32) (Host.reduceAdd (F := Ideal) (Host.divf (F := Ideal) (Host.reduceAdd (F := Ideal) (Host.absf (F := Ideal) (subf (F := Ideal) (broadcastInDim S32x2048x2048 ![0, 1, 2] bcast_S32x2048x1_S32x2048x2048_0_1_2 (broadcastInDim S32x2048x1 ![0, 1] bcast_S32x2048_S32x2048x1_0_1 (Host.log (F := Ideal) (addf (F := Ideal) att (broadcastInDim S32x2048 ![] bcast_S_S32x2048 (constant (F := Ideal) S_ .f32 0x358637BD#32)))))) (broadcastInDim S32x2048x2048 ![0, 1, 2] bcast_S32x1x2048_S32x2048x2048_0_1_2 (broadcastInDim S32x1x2048 ![0, 2] bcast_S32x2048_S32x1x2048_0_2 (Host.log (F := Ideal) (addf (F := Ideal) att (broadcastInDim S32x2048 ![] bcast_S_S32x2048 (constant (F := Ideal) S_ .f32 0x358637BD#32)))))))) (constant (F := Ideal) S_ .f32 0x00000000#32) reducesTo_S32x2048x2048_S32_d1_2 h_S_) (broadcastInDim S32 ![] bcast_S_S32 (constant (F := Ideal) S_ .f32 0x4B000000#32))) (constant (F := Ideal) S_ .f32 0x00000000#32) reducesTo_S32_S_d0 h_S_))
      = fun _ => combine (predRef lg lb ix0) (infoR att) :=
  (val_main_v20_eq (F := Ideal) att lg lb).trans (ref_value_eq att lg lb)

/-- Every weakly fair execution of the reference ends with its result the specification of its arguments — the
    cross-entropy term of the logits and labels minus one half of the information term of the 32 × 2048 array —
    and its arguments unchanged. -/
theorem reference_value
    (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
        r.2.mem ((c.tc : Thread Cert.ReferenceIdeal.nD Cert.ReferenceIdeal.τ).loc Cert.ReferenceIdeal.main_v20)
          = (fun _ => combine
              (predRef (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) ValueIdx.ix0)
              (infoR (m ((c.tc : Thread Cert.ReferenceIdeal.nD Cert.ReferenceIdeal.τ).loc Cert.ReferenceIdeal.main_arg0))))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)) :=
  (θ_run _ _ _).mono (fun _ h c => ⟨(h c).1.trans (ref_term_eq _ _ _), (h c).2⟩)
    (Cert.ReferenceIdeal.Value.run (F := Ideal) m ρ)

end Cert.Proof.Gini

end
-- ==== Proof.KB.Base.lean ====
/-
  The pairwise-gap kernel around its region: what the host lines before the region leave in the buffers,
  how @main splits into those lines, the region and the lines after it, the block of the attention array
  each input window shows at a grid point, and the two branch conditions of the body in closed form.

  The grid has 4·8·8 = 256 points. The body clears its accumulator at the first point only (all three
  coordinates zero), adds the point's sum of gaps at every point, and copies the accumulator to the output
  block at the last point only (coordinates 3, 7, 7). The output window is therefore idle — the body stores
  nothing into it — at every point but the last, which is also the only point whose block is written back.
-/
import proofs.«109390_j23502061044472_2_alg».proof.Proof.Gen.Kernel.Launch
import proofs.«109390_j23502061044472_2_alg».proof.Proof.Gen.Kernel.Skeleton
import proofs.«109390_j23502061044472_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host lines before the region: the cross-entropy term's 43 operations, in four stretches. -/
abbrev preOps : List (List (HloOp τ sig (Elt F))) := [hostOps0, hostOps0_1, hostOps0_2, hostOps0_3]

/-- Core `c`'s buffer contents when the region is entered: the launch contents after the lines before it. -/
abbrev V0 (c : Dev nD) : Valuation τ sig (Elt F) := StableHlo.after (List.flatten preOps) (fun b => m (c, b))
/-- The same read at a TensorCore reference. -/
abbrev V (c : Dev nD) (b : Ref sig .tc) : Buf (Elt F) ((c : Thread nD τ).loc b) := V0 m c (Proc.devRef .tc b)

/-- No host line allocates a buffer. -/
theorem preOps_fresh : (preOps : List (List (HloOp τ sig (Elt F)))).Forall fun ops => ops.Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the lines before the region, the region, and the lines after it: it reduces to the region
    continued by the later lines, entered at the contents `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main preOps [hostOps1] ⟨hostOps0_sub, hostOps0_1_sub, hostOps0_2_sub, hostOps0_3_sub⟩
    preOps_fresh main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The left-columns window's staging buffer holds its block at every point, fetched there or not (unfetched, its
    block index has not moved), for any proof data whose array is the entry contents and whose body leaves the block. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for the right-columns window. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- "This is the first point": all three grid coordinates are zero (the body's scalar chain). -/
abbrev condFirst (i : grid0.Coords) : Prop :=
  Scalar.cmpi .ne (Scalar.extui (Scalar.andi (Scalar.andi (Scalar.cmpi .eq (BitVec.ofNat 32 (i 0).val) 0#32) (Scalar.cmpi .eq (BitVec.ofNat 32 (i 1).val) 0#32)) (Scalar.cmpi .eq (BitVec.ofNat 32 (i 2).val) 0#32))) 0#32 = 1#1
/-- It holds at point 0 only — decided over the grid. -/
theorem hcondFirst : ∀ t : Fin cfg0.N, condFirst (grid0.coords t) ↔ t.val = 0 :=
  (by decide +kernel : ∀ t : Fin grid0.N, condFirst (grid0.coords t) ↔ t.val = 0)

/-- "This is the last point": the coordinates are 3, 7, 7. -/
abbrev condLast (i : grid0.Coords) : Prop := k0_cond2 i = 1#1
/-- It holds at point 255 only — decided over the grid. -/
theorem hcondLast : ∀ t : Fin cfg0.N, condLast (grid0.coords t) ↔ t.val = 255 :=
  (by decide +kernel : ∀ t : Fin grid0.N, condLast (grid0.coords t) ↔ t.val = 255)

/-! ## Where the windows are idle -/

theorem live0 : ∀ t : Fin cfg0.N, cfg0.idle 0 (grid0.coords t) = false := by decide +kernel
theorem live1 : ∀ t : Fin cfg0.N, cfg0.idle 1 (grid0.coords t) = false := by decide +kernel
/-- Away from the last point the body stores nothing into the output block, -/
theorem idle2 : ∀ t : Fin cfg0.N, ¬condLast (grid0.coords t) → cfg0.idle 2 (grid0.coords t) = true := by decide +kernel
/-- and the block is not written back there; -/
theorem noFlush2 : ∀ t : Fin cfg0.N, ¬condLast (grid0.coords t) → (cfg0.win 2).flush t = false := by decide +kernel
/-- at the last point it is stored. -/
theorem live2 : ∀ t : Fin cfg0.N, condLast (grid0.coords t) → cfg0.idle 2 (grid0.coords t) = false := by decide +kernel

/-! ## The memrefs the body is called with -/

abbrev ms0 (t : Fin cfg0.N) : Memref sig .tc .vmem S8x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S8x128 .f32 := win0_2.stage (cfg0.slots t 2)
abbrev hs2 (t : Fin cfg0.N) : (ms2 t).IsWhole := hstage0_2 ((cfg0.slots t 2).cast nbuf0_2)
/-- The accumulator: a whole scoped buffer of the kernel's own, passed beside the windows. -/
abbrev accM : Memref sig .tc .vmem S8x128 .f32 := Memref.whole cc0_scratch0
/-- One view through which the accumulator's and the output block's contents are stated. -/
abbrev accV : View sig .tc .vmem S8x128 .f32 := (accM : Memref sig .tc .vmem S8x128 .f32).view
abbrev outV : View sig .tc .vmem S8x128 .f32 := (Memref.whole cc0_stg2_0 : Memref sig .tc .vmem S8x128 .f32).view

/-- What the launch hands the region besides the windows: the accumulator at some contents and the generator register. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.Kernel.Hand

end
-- ==== Proof.KB.RunA.lean ====
/-
  The body of the pairwise-gap kernel run at the FIRST grid point (the accumulator is cleared, then the point's sum added; nothing is stored into the output block): on whole staging buffers holding the two input blocks,
  it ends with the inputs as they were and with the pieces its stores wrote, which the run finds.
-/
import proofs.«109390_j23502061044472_2_alg».proof.Proof.KB.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The pieces the body's stores leave (last first) at the first point, with the body's triple over them. -/
noncomputable def runA (c : Dev nD) (i : grid0.Coords) (arg3 : Memref sig .tc .vmem S8x256 .f32) (harg3 : arg3.IsWhole) (arg4 : Memref sig .tc .vmem S8x256 .f32) (harg4 : arg4.IsWhole) (arg5 : Memref sig .tc .vmem S8x128 .f32) (harg5 : arg5.IsWhole) (arg6 : Memref sig .tc .vmem S8x128 .f32) (harg6 : arg6.IsWhole) (hc0 : condFirst i) (hc1 : ¬condLast i)
    (x0 x1 : Vec F S8x256 .f32) :
    { LS : List (View.Piece (Elt F) S8x128 .f32) //
      ∀ (xi : Vec F S8x128 .f32) (E : Set ℕ) (K : PUnit → sProp 𝕄),
        iprop(owns (c : Thread nD τ) arg3 fullShare x0 ∗ owns (c : Thread nD τ) arg4 fullShare x1 ∗ owns (c : Thread nD τ) arg5 fullShare xi ∗ (∃ d, owns (c : Thread nD τ) arg6 fullShare d)
            ∗ (iprop(owns (c : Thread nD τ) arg3 fullShare x0 ∗ owns (c : Thread nD τ) arg4 fullShare x1 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc0__gini_sum_kernel i arg3 harg3 arg4 harg4 arg5 harg5 arg6 harg6) K } := by
  refine ⟨?_, fun xi E K => ?run⟩
  case run =>
    simp only [cc0__gini_sum_kernel_eq_skeleton]; unfold cc0__gini_sum_kernel_skel
    simp only [k0_part1_eq_skeleton]
    unfold owns
    iintro ⟨⟨%f0, %hf0, H0⟩, ⟨%f1, %hf1, H1⟩, ⟨%f2, %hf2, H2⟩, ⟨%ds, %fs, -, HS⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

end Cert.Kernel.Hand

end
-- ==== Proof.KB.RunB.lean ====
/-
  The body of the pairwise-gap kernel run at a MIDDLE grid point (the point's sum is added to the accumulator the point before left; nothing is stored into the output block): on whole staging buffers holding the two input blocks,
  it ends with the inputs as they were and with the pieces its stores wrote, which the run finds.
-/
import proofs.«109390_j23502061044472_2_alg».proof.Proof.KB.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The pieces the body's stores leave (last first) at a middle point, with the body's triple over them. -/
noncomputable def runB (c : Dev nD) (i : grid0.Coords) (arg3 : Memref sig .tc .vmem S8x256 .f32) (harg3 : arg3.IsWhole) (arg4 : Memref sig .tc .vmem S8x256 .f32) (harg4 : arg4.IsWhole) (arg5 : Memref sig .tc .vmem S8x128 .f32) (harg5 : arg5.IsWhole) (arg6 : Memref sig .tc .vmem S8x128 .f32) (harg6 : arg6.IsWhole) (hc0 : ¬condFirst i) (hc1 : ¬condLast i)
    (x0 x1 : Vec F S8x256 .f32) (xs : Vec F S8x128 .f32) :
    { LS : List (View.Piece (Elt F) S8x128 .f32) //
      ∀ (xi : Vec F S8x128 .f32) (E : Set ℕ) (K : PUnit → sProp 𝕄),
        iprop(owns (c : Thread nD τ) arg3 fullShare x0 ∗ owns (c : Thread nD τ) arg4 fullShare x1 ∗ owns (c : Thread nD τ) arg5 fullShare xi ∗ owns (c : Thread nD τ) arg6 fullShare xs
            ∗ (iprop(owns (c : Thread nD τ) arg3 fullShare x0 ∗ owns (c : Thread nD τ) arg4 fullShare x1 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc0__gini_sum_kernel i arg3 harg3 arg4 harg4 arg5 harg5 arg6 harg6) K } := by
  refine ⟨?_, fun xi E K => ?run⟩
  case run =>
    simp only [cc0__gini_sum_kernel_eq_skeleton]; unfold cc0__gini_sum_kernel_skel
    simp only [k0_part1_eq_skeleton]
    unfold owns
    iintro ⟨⟨%f0, %hf0, H0⟩, ⟨%f1, %hf1, H1⟩, ⟨%f2, %hf2, H2⟩, ⟨%fs, %hfs, HS⟩, Hk⟩
    obtain rfl := harg3.eq_unread hf0; obtain rfl := harg4.eq_unread hf1; obtain rfl := harg5.eq_unread hf2; obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

end Cert.Kernel.Hand

end
-- ==== Proof.KB.RunC.lean ====
/-
  The body of the pairwise-gap kernel run at the LAST grid point (the point's sum is added to the accumulator, and the accumulator is copied into the output block): on whole staging buffers holding the two input blocks,
  it ends with the inputs as they were and with the pieces its stores wrote, which the run finds.
-/
import proofs.«109390_j23502061044472_2_alg».proof.Proof.KB.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The pieces the body's stores leave (last first) at the last point, with the body's triple over them. -/
noncomputable def runC (c : Dev nD) (i : grid0.Coords) (arg3 : Memref sig .tc .vmem S8x256 .f32) (harg3 : arg3.IsWhole) (arg4 : Memref sig .tc .vmem S8x256 .f32) (harg4 : arg4.IsWhole) (arg5 : Memref sig .tc .vmem S8x128 .f32) (harg5 : arg5.IsWhole) (arg6 : Memref sig .tc .vmem S8x128 .f32) (harg6 : arg6.IsWhole) (hc0 : ¬condFirst i) (hc1 : condLast i)
    (x0 x1 : Vec F S8x256 .f32) (xs : Vec F S8x128 .f32) :
    Σ' (L5 : List (View.Piece (Elt F) S8x128 .f32)), { LS : List (View.Piece (Elt F) S8x128 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f LS)) -∗ K ⟨⟩))
          ⊢ wp frame (wpE (defs₀ (F := F)) Variants.none c none) E (cc0__gini_sum_kernel i arg3 harg3 arg4 harg4 arg5 harg5 arg6 harg6) K } := by
  refine ⟨?_, ?_, fun E K => ?run⟩
  case run =>
    simp only [cc0__gini_sum_kernel_eq_skeleton]; unfold cc0__gini_sum_kernel_skel
    simp only [k0_part1_eq_skeleton]
    unfold owns
    iintro ⟨⟨%f0, %hf0, H0⟩, ⟨%f1, %hf1, H1⟩, ⟨%d2, %f2, -, H2⟩, ⟨%fs, %hfs, HS⟩, Hk⟩
    obtain rfl := harg3.eq_unread hf0; obtain rfl := harg4.eq_unread hf1; obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS

end Cert.Kernel.Hand

end
-- ==== Proof.KB.Data.lean ====
/-
  The proof data of the pairwise-gap kernel's pipeline and its body obligation.

  The accumulator is a scratch buffer the kernel keeps between grid points: after point `n` it holds `accAt n`
  — at the first point what clearing it and adding that point's sum leaves, at every later point what adding
  the point's sum to `accAt (n - 1)` leaves. The region invariant carries the accumulator at exactly these
  contents from one point to the next. The output block is stored at the last point only, with a copy of the
  accumulator; at every other point the window is idle and its buffer is handed back as it was found.
  Both input windows read the one attention array: each holds one half of the array's share.
-/
import proofs.«109390_j23502061044472_2_alg».proof.Proof.KB.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each kind of point leaves -/

/-- The first point's stores into the accumulator tile it, -/
theorem coverFirst (c : Dev nD) (t : Fin cfg0.N) (hc0 : condFirst (grid0.coords t)) (hc1 : ¬condLast (grid0.coords t))
    (x0 x1 : Vec F S8x256 .f32) (y : S8x128.Idx) :
    ∃ pc ∈ (runA c (grid0.coords t) (ms0 t) (hs0 t) (ms1 t) (hs1 t) (ms2 t) (hs2 t) accM (Memref.isWhole_whole _) hc0 hc1 x0 x1).1, y ∈ pc.1.set :=
  View.cover_of_tiledL (runA c (grid0.coords t) (ms0 t) (hs0 t) (ms1 t) (hs1 t) (ms2 t) (hs2 t) accM (Memref.isWhole_whole _) hc0 hc1 x0 x1).1 S8x128.size (by sl_kernel_rfl) y
/-- so the accumulator then holds their read-back. -/
def accFirst (c : Dev nD) (t : Fin cfg0.N) (hc0 : condFirst (grid0.coords t)) (hc1 : ¬condLast (grid0.coords t))
    (x0 x1 : Vec F S8x256 .f32) : Vec F S8x128 .f32 :=
  accV.read (Elt F) (accV.writes (Elt F) accV.junk (runA c (grid0.coords t) (ms0 t) (hs0 t) (ms1 t) (hs1 t) (ms2 t) (hs2 t) accM (Memref.isWhole_whole _) hc0 hc1 x0 x1).1)

/-- A middle point's store into the accumulator covers it, -/
theorem coverMid (c : Dev nD) (t : Fin cfg0.N) (hc0 : ¬condFirst (grid0.coords t)) (hc1 : ¬condLast (grid0.coords t))
    (x0 x1 : Vec F S8x256 .f32) (xs : Vec F S8x128 .f32) (y : S8x128.Idx) :
    ∃ pc ∈ (runB c (grid0.coords t) (ms0 t) (hs0 t) (ms1 t) (hs1 t) (ms2 t) (hs2 t) accM (Memref.isWhole_whole _) hc0 hc1 x0 x1 xs).1, y ∈ pc.1.set :=
  View.cover_of_tiledL (runB c (grid0.coords t) (ms0 t) (hs0 t) (ms1 t) (hs1 t) (ms2 t) (hs2 t) accM (Memref.isWhole_whole _) hc0 hc1 x0 x1 xs).1 S8x128.size (by sl_kernel_rfl) y
/-- and leaves this in it. -/
def accMid (c : Dev nD) (t : Fin cfg0.N) (hc0 : ¬condFirst (grid0.coords t)) (hc1 : ¬condLast (grid0.coords t))
    (x0 x1 : Vec F S8x256 .f32) (xs : Vec F S8x128 .f32) : Vec F S8x128 .f32 :=
  accV.read (Elt F) (accV.writes (Elt F) accV.junk (runB c (grid0.coords t) (ms0 t) (hs0 t) (ms1 t) (hs1 t) (ms2 t) (hs2 t) accM (Memref.isWhole_whole _) hc0 hc1 x0 x1 xs).1)

/-- The last point's store into the accumulator covers it, -/
theorem coverLastAcc (c : Dev nD) (t : Fin cfg0.N) (hc0 : ¬condFirst (grid0.coords t)) (hc1 : condLast (grid0.coords t))
    (x0 x1 : Vec F S8x256 .f32) (xs : Vec F S8x128 .f32) (y : S8x128.Idx) :
    ∃ pc ∈ (runC c (grid0.coords t) (ms0 t) (hs0 t) (ms1 t) (hs1 t) (ms2 t) (hs2 t) accM (Memref.isWhole_whole _) hc0 hc1 x0 x1 xs).2.1, y ∈ pc.1.set :=
  View.cover_of_tiledL (runC c (grid0.coords t) (ms0 t) (hs0 t) (ms1 t) (hs1 t) (ms2 t) (hs2 t) accM (Memref.isWhole_whole _) hc0 hc1 x0 x1 xs).2.1 S8x128.size (by sl_kernel_rfl) y
/-- leaving this in it, -/
def accLast (c : Dev nD) (t : Fin cfg0.N) (hc0 : ¬condFirst (grid0.coords t)) (hc1 : condLast (grid0.coords t))
    (x0 x1 : Vec F S8x256 .f32) (xs : Vec F S8x128 .f32) : Vec F S8x128 .f32 :=
  accV.read (Elt F) (accV.writes (Elt F) accV.junk (runC c (grid0.coords t) (ms0 t) (hs0 t) (ms1 t) (hs1 t) (ms2 t) (hs2 t) accM (Memref.isWhole_whole _) hc0 hc1 x0 x1 xs).2.1)
/-- and its store into the output block covers that, -/
theorem coverLastOut (c : Dev nD) (t : Fin cfg0.N) (hc0 : ¬condFirst (grid0.coords t)) (hc1 : condLast (grid0.coords t))
    (x0 x1 : Vec F S8x256 .f32) (xs : Vec F S8x128 .f32) (y : S8x128.Idx) :
    ∃ pc ∈ (runC c (grid0.coords t) (ms0 t) (hs0 t) (ms1 t) (hs1 t) (ms2 t) (hs2 t) accM (Memref.isWhole_whole _) hc0 hc1 x0 x1 xs).1, y ∈ pc.1.set :=
  View.cover_of_tiledL (runC c (grid0.coords t) (ms0 t) (hs0 t) (ms1 t) (hs1 t) (ms2 t) (hs2 t) accM (Memref.isWhole_whole _) hc0 hc1 x0 x1 xs).1 S8x128.size (by sl_kernel_rfl) y
/-- leaving this in the output block. -/
def outLast (c : Dev nD) (t : Fin cfg0.N) (hc0 : ¬condFirst (grid0.coords t)) (hc1 : condLast (grid0.coords t))
    (x0 x1 : Vec F S8x256 .f32) (xs : Vec F S8x128 .f32) : Vec F S8x128 .f32 :=
  outV.read (Elt F) (outV.writes (Elt F) outV.junk (runC c (grid0.coords t) (ms0 t) (hs0 t) (ms1 t) (hs1 t) (ms2 t) (hs2 t) accM (Memref.isWhole_whole _) hc0 hc1 x0 x1 xs).1)

/-! ## The accumulator after each point -/

/-- What the accumulator holds after the body at position `n`: the recursion over the grid's points. -/
def accAt (c : Dev nD) : (n : ℕ) → n < cfg0.N → Vec F S8x128 .f32
  | 0, hn => accFirst c ⟨0, hn⟩ ((hcondFirst ⟨0, hn⟩).mpr rfl) (fun h => (fun h => by (try dsimp only at h); omega) ((hcondLast ⟨0, hn⟩).mp h)) (iblk m c 0 ⟨0, hn⟩) (iblk m c 1 ⟨0, hn⟩)
  | n + 1, hn =>
    if h1 : n + 1 = 255 then
      accLast c ⟨n + 1, hn⟩ (fun h => (fun h => by (try dsimp only at h); omega) ((hcondFirst ⟨n + 1, hn⟩).mp h)) ((hcondLast ⟨n + 1, hn⟩).mpr h1) (iblk m c 0 ⟨n + 1, hn⟩) (iblk m c 1 ⟨n + 1, hn⟩) (accAt c n (Nat.lt_of_succ_lt hn))
    else
      accMid c ⟨n + 1, hn⟩ (fun h => (fun h => by (try dsimp only at h); omega) ((hcondFirst ⟨n + 1, hn⟩).mp h)) (fun h => h1 ((hcondLast ⟨n + 1, hn⟩).mp h)) (iblk m c 0 ⟨n + 1, hn⟩) (iblk m c 1 ⟨n + 1, hn⟩) (accAt c n (Nat.lt_of_succ_lt hn))

theorem accAt_first (c : Dev nD) (t : Fin cfg0.N) (h0 : t.val = 0) (h1 : ¬t.val = 255) :
    accAt m c t.val t.isLt = accFirst c t ((hcondFirst t).mpr h0) (fun h => h1 ((hcondLast t).mp h)) (iblk m c 0 t) (iblk m c 1 t) := by
  obtain ⟨n, hn⟩ := t
  cases n with
  | zero => exact rfl
  | succ n => exact absurd h0 (Nat.succ_ne_zero n)

theorem accAt_mid (c : Dev nD) (t : Fin cfg0.N) (h0 : ¬t.val = 0) (h1 : ¬t.val = 255) :
    accAt m c t.val t.isLt = accMid c t (fun h => h0 ((hcondFirst t).mp h)) (fun h => h1 ((hcondLast t).mp h)) (iblk m c 0 t) (iblk m c 1 t)
      (accAt m c (t.val - 1) (Nat.lt_of_le_of_lt (Nat.sub_le _ _) t.isLt)) := by
  obtain ⟨n, hn⟩ := t
  cases n with
  | zero => exact absurd rfl h0
  | succ n => exact (dif_neg h1).trans rfl

theorem accAt_last (c : Dev nD) (t : Fin cfg0.N) (h0 : ¬t.val = 0) (h1 : t.val = 255) :
    accAt m c t.val t.isLt = accLast c t (fun h => h0 ((hcondFirst t).mp h)) ((hcondLast t).mpr h1) (iblk m c 0 t) (iblk m c 1 t)
      (accAt m c (t.val - 1) (Nat.lt_of_le_of_lt (Nat.sub_le _ _) t.isLt)) := by
  obtain ⟨n, hn⟩ := t
  cases n with
  | zero => exact absurd rfl h0
  | succ n => exact (dif_pos h1).trans rfl

/-- What the output block's staging buffer holds after the body at point `t`: the copy of the accumulator at the last
    point; at the other points the window is idle, nothing consults this, and the accumulator's contents stand in. -/
def outAt (c : Dev nD) (t : Fin cfg0.N) : Vec F S8x128 .f32 :=
  if h1 : t.val = 255 then
    outLast c t (fun h => (fun h => by omega) ((hcondFirst t).mp h)) ((hcondLast t).mpr h1) (iblk m c 0 t) (iblk m c 1 t)
      (accAt m c (t.val - 1) (Nat.lt_of_le_of_lt (Nat.sub_le _ _) t.isLt))
  else accAt m c t.val t.isLt

theorem outAt_last (c : Dev nD) (t : Fin cfg0.N) (h0 : ¬t.val = 0) (h1 : t.val = 255) :
    outAt m c t = outLast c t (fun h => h0 ((hcondFirst t).mp h)) ((hcondLast t).mpr h1) (iblk m c 0 t) (iblk m c 1 t)
      (accAt m c (t.val - 1) (Nat.lt_of_le_of_lt (Nat.sub_le _ _) t.isLt)) := by
  unfold outAt; exact (dif_pos h1).trans rfl

/-! ## The region invariant -/

/-- Before position `n`: before the first point the accumulator at anything (what the launch hands over); afterwards
    at what the point before left in it; and the generator register at some state. -/
def PhiS (c : Dev nD) : (n : ℕ) → n ≤ cfg0.N → sProp 𝕄
  | 0, _ => Pipeline.ΦA spec0 c
  | n + 1, hn => iprop(iprop(owns (c : Thread nD τ) accM fullShare (accAt m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) accM fullShare (accAt m c n hn)) ∗ (∃ r, prngReg c r)) := rfl
theorem PhiS_pos (c : Dev nD) (n : ℕ) (h : n ≤ cfg0.N) (hz : n ≠ 0) :
    PhiS m c n h = iprop(iprop(owns (c : Thread nD τ) accM fullShare (accAt m c (n - 1) (by omega))) ∗ (∃ r, prngReg c r)) := by
  cases n with
  | zero => exact absurd rfl hz
  | succ n => rfl

/-! ## The pipeline's proof data -/

/-- The proof data on core `c`: the arrays as the region finds them; after the body each input's buffer at its block,
    the output's at `outAt`; the invariant `PhiS`; the attention array's share halved between the two windows that
    read it; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = outAt m c t := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

theorem leaves0 (c : Dev nD) (t : Fin cfg0.N) : (dats m 0 c).leavesExact 0 t = owns (c : Thread nD τ) (ms0 t) fullShare (iblk m c 0 t) := by
  unfold Dat.leavesExact; rw [live0 t, after0]
theorem leaves1 (c : Dev nD) (t : Fin cfg0.N) : (dats m 0 c).leavesExact 1 t = owns (c : Thread nD τ) (ms1 t) fullShare (iblk m c 1 t) := by
  unfold Dat.leavesExact; rw [live1 t, after1]

set_option maxHeartbeats 4000000 in
/-- The body at any point: the inputs' buffers hold their blocks; the point is the first, a middle one or the last; the
    invariant hands over the accumulator at what the point before left (at anything at the first point) and takes it
    back at this point's contents; the output block is stored at the last point and handed back untouched elsewhere. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ, leaves0, leaves1]
  have hN : t.val < 256 := lt_of_lt_of_eq t.isLt (show cfg0.N = 256 from N_0)
  by_cases h0 : t.val = 0
  · have h1 : ¬t.val = 255 := by omega
    rw [Dat.leavesExact_idle (dats m 0 c) 2 t (idle2 t (fun h => h1 ((hcondLast t).mp h))) (noFlush2 t (fun h => h1 ((hcondLast t).mp h)))]
    rw [accAt_first m c t h0 h1]
    unfold accFirst; (try dsimp only)
    rw [PhiS_castSucc m c t, PhiS_zero m c _ _ h0, PhiA_eq]
    iintro ⟨⟨HS, Hg⟩, Ho, ⟨%d0, H0⟩, ⟨%d1, H1⟩, ⟨%d2, H2⟩⟩
    iapply ((runA c (grid0.coords t) _ _ _ _ _ _ _ _ ((hcondFirst t).mpr h0) (fun h => h1 ((hcondLast t).mp h)) (iblk m c 0 t) (iblk m c 1 t)).2 _ Set.univ _)
    isplitl [H0]; · iexact H0
    isplitl [H1]; · iexact H1
    isplitl [H2]; · iexact H2
    isplitl [HS]; · iexact HS
    iintro ⟨H0, H1, H2, ⟨%es, HS⟩⟩
    isplitl [HS Hg]
    · isplitl [HS]
      · unfold owns; iexists _; isplitr
        swap; · iexact HS
        ipureintro; exact View.read_writes_of_cover _ _ _ _ _ (coverFirst c t _ _ _ _)
      iexact Hg
    isplitl [Ho]; · iexact Ho
    isplitl [H0]; · iexact H0
    isplitl [H1]; · iexact H1
    iexists _; iexact H2
  · by_cases h1 : t.val = 255
    · rw [show (dats m 0 c).leavesExact 2 t = owns (c : Thread nD τ) (ms2 t) fullShare ((dats m 0 c).after 2 t) from by
        unfold Dat.leavesExact; rw [live2 t ((hcondLast t).mpr h1)], after2]
      rw [outAt_last m c t h0 h1, accAt_last m c t h0 h1]
      unfold accLast outLast; (try dsimp only)
      rw [PhiS_castSucc m c t, PhiS_pos m c _ _ h0]
      iintro ⟨⟨HS, Hg⟩, Ho, ⟨%d0, H0⟩, ⟨%d1, H1⟩, ⟨%d2, H2⟩⟩
      iapply ((runC c (grid0.coords t) _ _ _ _ _ _ _ _ (fun h => h0 ((hcondFirst t).mp h)) ((hcondLast t).mpr h1) (iblk m c 0 t) (iblk m c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hg]
      · isplitl [HS]
        · unfold owns; iexists _; isplitr
          swap; · iexact HS
          ipureintro; exact View.read_writes_of_cover _ _ _ _ _ (coverLastAcc c t _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (coverLastOut c t _ _ _ _ _)
    · rw [Dat.leavesExact_idle (dats m 0 c) 2 t (idle2 t (fun h => h1 ((hcondLast t).mp h))) (noFlush2 t (fun h => h1 ((hcondLast t).mp h)))]
      rw [accAt_mid m c t h0 h1]
      unfold accMid; (try dsimp only)
      rw [PhiS_castSucc m c t, PhiS_pos m c _ _ h0]
      iintro ⟨⟨HS, Hg⟩, Ho, ⟨%d0, H0⟩, ⟨%d1, H1⟩, ⟨%d2, H2⟩⟩
      iapply ((runB c (grid0.coords t) _ _ _ _ _ _ _ _ (fun h => h0 ((hcondFirst t).mp h)) (fun h => h1 ((hcondLast t).mp h)) (iblk m c 0 t) (iblk m c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hg]
      · isplitl [HS]
        · unfold owns; iexists _; isplitr
          swap; · iexact HS
          ipureintro; exact View.read_writes_of_cover _ _ _ _ _ (coverMid c t _ _ _ _ _)
        iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the accumulator back at some contents. -/
theorem hout (c : Dev nD) : (dats m 0 c).Φ (Fin.last cfg0.N) ⊢ Pipeline.ΦA spec0 c := by
  have hN : cfg0.N = 256 := N_0
  rw [show (dats m 0 c).Φ (Fin.last cfg0.N) = PhiS m c (Fin.last cfg0.N).val (Nat.le_of_lt_succ (Fin.last cfg0.N).isLt) from rfl,
    PhiS_pos m c _ _ (by rw [Fin.val_last]; omega), PhiA_eq]
  iintro ⟨HS, Hg⟩
  isplitl [HS]
  · iexists _; iexact HS
  iexact Hg

end Cert.Kernel.Hand

end
-- ==== Proof.KB.Launch.lean ====
/-
  The launch of the pairwise-gap kernel's region and the run of the whole program.

  Two of the three windows read the one attention array, so the array's points-to is split in two halves at
  the region's entry, one per window, and joined again at its exit; the third window owns the output array
  outright. After the region seven host lines read the output array's first entry and combine it with the
  cross-entropy term; they run within the unscoped buffers, at the contents the region leaves.
-/
import proofs.«109390_j23502061044472_2_alg».proof.Proof.KB.Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays behind the windows -/

/-- Behind the three windows stand two distinct arrays: the attention array (twice) and the output array. -/
theorem arrImage : (Finset.univ.image (Pipeline.arrRef spec0) : Finset (Ref sig .tc)) = [main_arg0, main_v6].toFinset := by decide

/-- The distinct arrays, each whole at the full share. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_v6) ↦{fullShare} W main_v6)) := by
  unfold Pipeline.arrBufs
  rw [bigSep_eq_bigSepL_of_eq [main_arg0, main_v6] arrImage (by decide)]
  rfl

/-- The pipeline's arrays, window by window: the attention array at its left half for the left-columns window, at its
    right half for the right-columns window, the output array outright. -/
theorem arrays_eq3 (c : Dev nD) (G : (w : Fin cfg0.W) → Buf (Elt F) ((cfg0.win w).arr.view.loc (c : Thread nD τ))) :
    ((dats m 0 c).arrays G : sProp 𝕄)
      = iprop((((c : Thread nD τ).loc main_arg0) ↦{fullShare.left} G 0) ∗ (((c : Thread nD τ).loc main_arg0) ↦{fullShare.right} G 1)
          ∗ (((c : Thread nD τ).loc main_v6) ↦{fullShare} G 2)) := by
  unfold Dat.arrays
  rw [bigSep_W0, (arr_whole0 0).set_eq_univ, (arr_whole0 2).set_eq_univ]
  rfl

/-- At the region's entry the attention array's full share splits into the two windows' halves. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq, arrays_eq3]
  iintro ⟨Ha, Ho⟩
  ihave Hs := (pointsTo_share (PosShare.mem_left_op_right fullShare)).1 $$ Ha
  icases Hs with ⟨Hl, Hr⟩
  isplitl [Hl]; · iexact Hl
  isplitl [Hr]; · iexact Hr
  iexact Ho

/-! ## The lines after the region -/

/-- The buffers' contents at the region's exit: the output array at what the write-backs leave, every other buffer as
    at the entry. -/
def Wexit (c : Dev nD) : Valuation τ sig (Elt F) :=
  Function.update (V0 m c) (Proc.devRef .tc main_v6) ((dats m 0 c).arrAt 2 cfg0.N)

/-- The buffers' contents after the lines that follow the region. -/
def Vend (c : Dev nD) (b : Ref sig .tc) : Buf (Elt F) ((c : Thread nD τ).loc b) :=
  StableHlo.after (hostOps1 (F := F)) (Wexit m c) (Proc.devRef .tc b)

theorem Wexit_out (c : Dev nD) : Wexit m c (Proc.devRef .tc main_v6) = (dats m 0 c).arrAt 2 cfg0.N := by
  unfold Wexit; exact Function.update_self _ _ _

theorem Wexit_of_ne (c : Dev nD) (b : Ref sig .tc) (hb : b ≠ main_v6) : Wexit m c (Proc.devRef .tc b) = V m c b := by
  unfold Wexit; exact Function.update_of_ne (fun e => hb (Proc.devRef_injective _ e)) _ _

/-- The buffers that bypass the region are not the output array: at the exit they hold what they held at the entry. -/
theorem rest_exit (c : Dev nD) :
    (Pipeline.unscopedRest (Ix := Unit) (Name := ℕ) (U := UR sig nD τ) (Lvl := ℕ) spec0 c (fun b => Wexit m c (Proc.devRef .tc b)) : sProp 𝕄)
      = Pipeline.unscopedRest spec0 c (V m c) := by
  unfold Pipeline.unscopedRest
  exact bigSep_congr fun b hb => by
    dsimp only
    rw [Wexit_of_ne m c b (fun e => (Finset.mem_sdiff.mp hb).2 (Finset.mem_image.mpr ⟨2, Finset.mem_univ _, e.symm⟩))]

/-- The unscoped buffers held at a valuation: the two arrays and the buffers that bypass the region. -/
theorem held_of (c : Dev nD) (W : Valuation τ sig (Elt F)) :
    (StableHlo.held (c : Thread nD τ) (Pipeline.ucRefs τ sig) W : sProp 𝕄)
      = iprop(iprop((((c : Thread nD τ).loc main_arg0) ↦{fullShare} W (Proc.devRef .tc main_arg0)) ∗ (((c : Thread nD τ).loc main_v6) ↦{fullShare} W (Proc.devRef .tc main_v6)))
          ∗ Pipeline.unscopedRest spec0 c (fun b => W (Proc.devRef .tc b))) := by
  rw [← Pipeline.unscopedBufs_held (Ix := Unit) (Name := ℕ) (U := UR sig nD τ) (Lvl := ℕ) c W,
    Pipeline.unscopedBufs_split₀ cfgs (0 : Fin 1) winFacts₀0.arr_unscoped c _, arrBufs_eq]

/-- The references the lines after the region write: their own results. -/
abbrev tailW : List (Ref sig .tc) := [main_v7, main_v8, main_cst_1, main_v9, main_cst_2, main_v10, main_v11]
theorem tail_writes : (hostOps1 : List (HloOp τ sig (Elt F))).Forall fun op => op.writes ⊆ (tailW.map (Proc.devRef (τ := τ) .tc)).toFinset := by
  simp only [List.Forall]
  refine ⟨?_, ?_, ?_, ?_, ?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
/-- A buffer none of those lines writes keeps its contents through them. -/
theorem after_tail_of (W : Valuation τ sig (Elt F)) (r : Ref sig .tc) (h : r ∉ tailW) :
    StableHlo.after (hostOps1 (F := F)) W (Proc.devRef .tc r) = W (Proc.devRef .tc r) :=
  StableHlo.after_of_writes_sub hostOps1 _ tail_writes h

/-- The lines after the region touch unscoped TensorCore buffers only, -/
theorem tail_sub : ∀ ops ∈ ([hostOps1] : List (List (HloOp τ sig (Elt F)))), ∀ op ∈ ops, op.bufs ⊆ Pipeline.ucRefs τ sig := by
  intro ops hops op hop
  simp only [List.mem_cons, List.mem_nil_iff, or_false] at hops
  rcases hops with rfl
  exact Pipeline.sub_ucRefs op ((List.forall_iff_forall_mem.mp hostOps1_sub) op hop)
/-- and allocate nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- The pipeline's arrays at the region's exit: the attention array, never written, at its entry contents in both
    halves; the output array at what the write-backs leave. -/
theorem arrays_exit (c : Dev nD) :
    ((dats m 0 c).arrays ((dats m 0 c).arrAt · cfg0.N) : sProp 𝕄)
      = iprop((((c : Thread nD τ).loc main_arg0) ↦{fullShare.left} V m c main_arg0) ∗ (((c : Thread nD τ).loc main_arg0) ↦{fullShare.right} V m c main_arg0)
          ∗ (((c : Thread nD τ).loc main_v6) ↦{fullShare} (dats m 0 c).arrAt 2 cfg0.N)) := by
  have hin0 : (dats m 0 c).arrAt 0 cfg0.N = V m c main_arg0 := ((dats m 0 c).arrAt_in 0 rfl _).trans (A_eq m c 0)
  have hin1 : (dats m 0 c).arrAt 1 cfg0.N = V m c main_arg0 := ((dats m 0 c).arrAt_in 1 rfl _).trans (A_eq m c 1)
  rw [arrays_eq3]; (try dsimp only); rw [hin0, hin1]

set_option backward.isDefEq.respectTransparency.types false in
/-- The lines after the region, run from its exit: the two halves of the attention array join, the lines run within the
    unscoped buffers, and the halves part again. -/
theorem htail (c : Dev nD) (Q' : PUnit → sProp 𝕄) :
    iprop((iprop((dats m 0 c).arrays ((dats m 0 c).arrAt · cfg0.N) ∗ Pipeline.unscopedRestP (Ix := Unit) (Name := ℕ) (U := UR sig nD τ) (Lvl := ℕ) Pipeline.Prefetch.none spec0 c (Vend m c)) -∗ Q' ⟨⟩)
        ∗ boundary (c : Thread nD τ) ∗ (dats m 0 c).arrays ((dats m 0 c).arrAt · cfg0.N)
        ∗ Pipeline.unscopedRestP (Ix := Unit) (Name := ℕ) (U := UR sig nD τ) (Lvl := ℕ) Pipeline.Prefetch.none spec0 c (V m c))
      ⊢ wp frame (wpE (Pipeline.defs (pcfgs (F := F)) defs₀) (Variants.lift Variants.none) (c : Thread nD τ) none) Set.univ
          (Pipeline.chain ([hostOps1].map StableHlo.seq)) Q' := by
  have hW : (StableHlo.held (c : Thread nD τ) (Pipeline.ucRefs τ sig) (Wexit m c) : sProp 𝕄)
      = iprop(iprop((((c : Thread nD τ).loc main_arg0) ↦{fullShare} V m c main_arg0) ∗ (((c : Thread nD τ).loc main_v6) ↦{fullShare} (dats m 0 c).arrAt 2 cfg0.N))
          ∗ Pipeline.unscopedRest spec0 c (V m c)) := by
    rw [held_of, Wexit_out, Wexit_of_ne m c main_arg0 (by decide), rest_exit]
  have hW' : (StableHlo.held (c : Thread nD τ) (Pipeline.ucRefs τ sig) (StableHlo.after ([hostOps1] : List (List (HloOp τ sig (Elt F)))).flatten (Wexit m c)) : sProp 𝕄)
      = iprop(iprop((((c : Thread nD τ).loc main_arg0) ↦{fullShare} V m c main_arg0) ∗ (((c : Thread nD τ).loc main_v6) ↦{fullShare} (dats m 0 c).arrAt 2 cfg0.N))
          ∗ Pipeline.unscopedRest spec0 c (Vend m c)) := by
    rw [held_of, List.flatten_cons, List.flatten_nil, List.append_nil, after_tail_of _ main_arg0 (by decide), after_tail_of _ main_v6 (by decide),
      Wexit_out, Wexit_of_ne m c main_arg0 (by decide)]
    rfl
  rw [arrays_exit, Pipeline.unscopedRestP_none, Pipeline.unscopedRestP_none, ← List.append_nil ([hostOps1].map StableHlo.seq)]
  iintro ⟨Hk, Hb, ⟨Hl, Hr, Ho⟩, Hz⟩
  ihave Ha := (pointsTo_share (PosShare.mem_left_op_right fullShare)).2 $$ [Hl Hr]
  · isplitl [Hl]; · iexact Hl
    iexact Hr
  ihave Hh := (Entails.of_eq hW.symm) $$ [Ha Ho Hz]
  · isplitl [Ha Ho]
    · isplitl [Ha]; · iexact Ha
      iexact Ho
    iexact Hz
  iapply (Pipeline.wp_seqs_then (pcfgs (F := F)) defs₀ Variants.none c (Pipeline.ucRefs τ sig) [] [hostOps1] tail_sub tail_fresh (Wexit m c)) $$ [Hb Hh]
  · isplitl [Hb]; · iexact Hb
    iexact Hh
  iintro Hb
  rw [Pipeline.chain_nil, wp_pure, hW']
  imodintro
  iapply Hk
  icases Hb with ⟨-, ⟨⟨Ha, Ho⟩, Hz⟩⟩
  ihave Hs := (pointsTo_share (PosShare.mem_left_op_right fullShare)).1 $$ Ha
  icases Hs with ⟨Hl, Hr⟩
  isplitl [Hl Hr Ho]
  · isplitl [Hl]; · iexact Hl
    isplitl [Hr]; · iexact Hr
    iexact Ho
  iexact Hz

/-! ## The run -/

/-- What the run concludes: every window's array at what the write-backs leave, every other unscoped buffer at the
    contents after the lines that follow the region. -/
def RunPost (r : PUnit × MemSt nD τ sig (Elt F)) : Prop :=
  ∀ c : Dev nD, (∀ w, r.2.mem (((cfg0).spec w).arr.view.loc (c.tc : Thread nD τ)) = (dats m 0 c).arrAt w cfg0.N)
    ∧ ∀ b ∈ Pipeline.restRefsP sig Pipeline.Prefetch.none spec0, r.2.mem ((c.tc : Thread nD τ).loc b) = Vend m c b

set_option backward.isDefEq.respectTransparency.types false in
set_option maxHeartbeats 1600000 in
/-- At the compiled mesh, for any float values, from any memory with zero counters: every weakly fair execution of @main
    terminates without a fault, in a state as `RunPost` says. -/
theorem run_main : θ_run defs (onTc (τ := τ) (main (F := F))) (s₀ m ρ) (RunPost m) := by
  classical
  exact Pipeline.θ_run_region_pf_tail (fun q => (cfgs q).toPCfg (Val := Elt F)) (fun q => (cfgs q).toPCfg_adm) (dats m) () cellOf_inj (0 : Fin 1) winFacts₀0
    (Pipeline.OwnSemFacts.none spec0) (Pipeline.PreFacts.none _) emb₁ defs₀ Variants.none m ρ main
    (fun _ => Pipeline.chain ([hostOps1].map StableHlo.seq)) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (Vend m c))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := fun c Q' => htail m c Q')
    (QY := fun c s => ∀ b ∈ Pipeline.restRefsP sig Pipeline.Prefetch.none spec0, s.mem ((c.tc : Thread nD τ).loc b) = Vend m c b)
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (Vend m c) s')
      isplitl [HU] <;> iassumption)
    (hQ := fun s h c => ⟨(h c).1, (h c).2.2⟩)

end Cert.Kernel.Hand

end
-- ==== Proof.KB.Entry.lean ====
/-
  What the host lines around the region leave alone.

  The 43 lines before the region compute the cross-entropy term into buffers of their own: none of them writes one of
  the three argument arrays, so the region finds each as it was launched. The seven lines after the region write seven
  buffers of their own and nothing else.
-/
import proofs.«109390_j23502061044472_2_alg».proof.Proof.KB.Base
import Idealize.ShloMosaic.Lib.StableHlo.Run

set_option maxRecDepth 16384

noncomputable section

namespace Cert.Kernel.Hand

open Cert.Kernel Cert.Kernel.Gen
open Idealize.ShloMosaic Idealize.ShloMosaic.TcCoe Idealize.SL.Sem Idealize.ShloMosaic.StableHlo

variable {F : FTy → Type} [FloatOps F]

/-! ## No host line before the region writes an argument array -/

/-- The 32 × 2048 array is as launched when the region is entered. -/
theorem V_arg0 (m : (ℓ : Loc nD τ sig) → Buf (Elt F) ℓ) (c : Dev nD) :
    V m c main_arg0 = m ((c : Thread nD τ).loc main_arg0) := by
  dsimp only [V, V0, preOps]
  simp only [hostOps0, hostOps0_1, hostOps0_2, hostOps0_3, List.flatten_cons, List.flatten_nil, List.append_nil,
    List.cons_append, List.nil_append]
  after_results_simp

/-- So are the logits. -/
theorem V_arg1 (m : (ℓ : Loc nD τ sig) → Buf (Elt F) ℓ) (c : Dev nD) :
    V m c main_arg1 = m ((c : Thread nD τ).loc main_arg1) := by
  dsimp only [V, V0, preOps]
  simp only [hostOps0, hostOps0_1, hostOps0_2, hostOps0_3, List.flatten_cons, List.flatten_nil, List.append_nil,
    List.cons_append, List.nil_append]
  after_results_simp

/-- So are the labels. -/
theorem V_arg2 (m : (ℓ : Loc nD τ sig) → Buf (Elt F) ℓ) (c : Dev nD) :
    V m c main_arg2 = m ((c : Thread nD τ).loc main_arg2) := by
  dsimp only [V, V0, preOps]
  simp only [hostOps0, hostOps0_1, hostOps0_2, hostOps0_3, List.flatten_cons, List.flatten_nil, List.append_nil,
    List.cons_append, List.nil_append]
  after_results_simp

/-! ## The seven lines after the region write seven buffers of their own -/

/-- Every buffer but the seven those lines write is after them as it was before. -/
theorem tail_keeps (W : Valuation τ sig (Elt F)) (b : Ref sig .tc)
    (hb : b ∉ [main_v7, main_v8, main_cst_1, main_v9, main_cst_2, main_v10, main_v11]) :
    StableHlo.after (hostOps1 (F := F)) W (Proc.devRef .tc b) = W (Proc.devRef .tc b) :=
  StableHlo.after_of_writes_sub hostOps1 W (by
    simp only [hostOps1, List.Forall, StableHlo.unary_writes, StableHlo.reshape_writes, StableHlo.nullary_writes,
      StableHlo.binary_writes, Finset.singleton_subset_iff, List.mem_toFinset]
    exact ⟨List.mem_map_of_mem (by decide), List.mem_map_of_mem (by decide), List.mem_map_of_mem (by decide),
      List.mem_map_of_mem (by decide), List.mem_map_of_mem (by decide), List.mem_map_of_mem (by decide),
      List.mem_map_of_mem (by decide)⟩) hb

end Cert.Kernel.Hand

end
-- ==== Proof.KB.Frame.lean ====
/-
  The frame of the pairwise-gap program: it runs to the end without a fault and its three argument arrays end as
  they began. The attention array is only ever read by the region's two input windows; the logits and labels are
  read by the host lines before the region; no line, before or after, writes an argument.
-/
import proofs.«109390_j23502061044472_2_alg».proof.Proof.KB.Launch
import proofs.«109390_j23502061044472_2_alg».proof.Proof.KB.Entry

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem arg1_bypasses : main_arg1 ∈ Pipeline.restRefsP sig Pipeline.Prefetch.none spec0 := by decide
theorem arg2_bypasses : main_arg2 ∈ Pipeline.restRefsP sig Pipeline.Prefetch.none spec0 := by decide

/-- A buffer that is neither the output array nor written by the lines after the region ends at its entry contents. -/
theorem Vend_keep (c : Dev nD) (b : Ref sig .tc) (hb : b ∉ tailW) (hb' : b ≠ main_v6) : Vend m c b = V m c b := by
  unfold Vend; rw [after_tail_of _ b hb, Wexit_of_ne m c b hb']

/-- The frame, at any float values: every weakly fair execution terminates without a fault and leaves the three
    arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h c).1 0).trans ((((dats m 0 c).arrAt_in 0 rfl _).trans (A_eq m c 0)).trans (V_arg0 m c)),
     ((h c).2 main_arg1 arg1_bypasses).trans ((Vend_keep m c main_arg1 (by decide) (by decide)).trans (V_arg1 m c)),
     ((h c).2 main_arg2 arg2_bypasses).trans ((Vend_keep m c main_arg2 (by decide) (by decide)).trans (V_arg2 m c))⟩)
    (run_main m ρ)

end Cert.Kernel.Hand

end
-- ==== Proof.KI.Base.lean ====
/-
  The pairwise-gap kernel around its region: what the host lines before the region leave in the buffers,
  how @main splits into those lines, the region and the lines after it, the block of the attention array
  each input window shows at a grid point, and the two branch conditions of the body in closed form.

  The grid has 4·8·8 = 256 points. The body clears its accumulator at the first point only (all three
  coordinates zero), adds the point's sum of gaps at every point, and copies the accumulator to the output
  block at the last point only (coordinates 3, 7, 7). The output window is therefore idle — the body stores
  nothing into it — at every point but the last, which is also the only point whose block is written back.
-/
import proofs.«109390_j23502061044472_2_alg».proof.Proof.Gen.KernelIdeal.Launch
import proofs.«109390_j23502061044472_2_alg».proof.Proof.Gen.KernelIdeal.Skeleton
import proofs.«109390_j23502061044472_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host lines before the region: the cross-entropy term's 43 operations, in four stretches. -/
abbrev preOps : List (List (HloOp τ sig (Elt F))) := [hostOps0, hostOps0_1, hostOps0_2, hostOps0_3]

/-- Core `c`'s buffer contents when the region is entered: the launch contents after the lines before it. -/
abbrev V0 (c : Dev nD) : Valuation τ sig (Elt F) := StableHlo.after (List.flatten preOps) (fun b => m (c, b))
/-- The same read at a TensorCore reference. -/
abbrev V (c : Dev nD) (b : Ref sig .tc) : Buf (Elt F) ((c : Thread nD τ).loc b) := V0 m c (Proc.devRef .tc b)

/-- No host line allocates a buffer. -/
theorem preOps_fresh : (preOps : List (List (HloOp τ sig (Elt F)))).Forall fun ops => ops.Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the lines before the region, the region, and the lines after it: it reduces to the region
    continued by the later lines, entered at the contents `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main preOps [hostOps1] ⟨hostOps0_sub, hostOps0_1_sub, hostOps0_2_sub, hostOps0_3_sub⟩
    preOps_fresh main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The left-columns window's staging buffer holds its block at every point, fetched there or not (unfetched, its
    block index has not moved), for any proof data whose array is the entry contents and whose body leaves the block. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for the right-columns window. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- "This is the first point": all three grid coordinates are zero (the body's scalar chain). -/
abbrev condFirst (i : grid0.Coords) : Prop :=
  Scalar.cmpi .ne (Scalar.extui (Scalar.andi (Scalar.andi (Scalar.cmpi .eq (BitVec.ofNat 32 (i 0).val) 0#32) (Scalar.cmpi .eq (BitVec.ofNat 32 (i 1).val) 0#32)) (Scalar.cmpi .eq (BitVec.ofNat 32 (i 2).val) 0#32))) 0#32 = 1#1
/-- It holds at point 0 only — decided over the grid. -/
theorem hcondFirst : ∀ t : Fin cfg0.N, condFirst (grid0.coords t) ↔ t.val = 0 :=
  (by decide +kernel : ∀ t : Fin grid0.N, condFirst (grid0.coords t) ↔ t.val = 0)

/-- "This is the last point": the coordinates are 3, 7, 7. -/
abbrev condLast (i : grid0.Coords) : Prop := k0_cond2 i = 1#1
/-- It holds at point 255 only — decided over the grid. -/
theorem hcondLast : ∀ t : Fin cfg0.N, condLast (grid0.coords t) ↔ t.val = 255 :=
  (by decide +kernel : ∀ t : Fin grid0.N, condLast (grid0.coords t) ↔ t.val = 255)

/-! ## Where the windows are idle -/

theorem live0 : ∀ t : Fin cfg0.N, cfg0.idle 0 (grid0.coords t) = false := by decide +kernel
theorem live1 : ∀ t : Fin cfg0.N, cfg0.idle 1 (grid0.coords t) = false := by decide +kernel
/-- Away from the last point the body stores nothing into the output block, -/
theorem idle2 : ∀ t : Fin cfg0.N, ¬condLast (grid0.coords t) → cfg0.idle 2 (grid0.coords t) = true := by decide +kernel
/-- and the block is not written back there; -/
theorem noFlush2 : ∀ t : Fin cfg0.N, ¬condLast (grid0.coords t) → (cfg0.win 2).flush t = false := by decide +kernel
/-- at the last point it is stored. -/
theorem live2 : ∀ t : Fin cfg0.N, condLast (grid0.coords t) → cfg0.idle 2 (grid0.coords t) = false := by decide +kernel

/-! ## The memrefs the body is called with -/

abbrev ms0 (t : Fin cfg0.N) : Memref sig .tc .vmem S8x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S8x128 .f32 := win0_2.stage (cfg0.slots t 2)
abbrev hs2 (t : Fin cfg0.N) : (ms2 t).IsWhole := hstage0_2 ((cfg0.slots t 2).cast nbuf0_2)
/-- The accumulator: a whole scoped buffer of the kernel's own, passed beside the windows. -/
abbrev accM : Memref sig .tc .vmem S8x128 .f32 := Memref.whole cc0_scratch0
/-- One view through which the accumulator's and the output block's contents are stated. -/
abbrev accV : View sig .tc .vmem S8x128 .f32 := (accM : Memref sig .tc .vmem S8x128 .f32).view
abbrev outV : View sig .tc .vmem S8x128 .f32 := (Memref.whole cc0_stg2_0 : Memref sig .tc .vmem S8x128 .f32).view

/-- What the launch hands the region besides the windows: the accumulator at some contents and the generator register. -/
theorem PhiA_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.KernelIdeal.Hand

end
-- ==== Proof.KI.RunA.lean ====
/-
  The body of the pairwise-gap kernel run at the FIRST grid point (the accumulator is cleared, then the point's sum added; nothing is stored into the output block): on whole staging buffers holding the two input blocks,
  it ends with the inputs as they were and with the pieces its stores wrote, which the run finds.
-/
import proofs.«109390_j23502061044472_2_alg».proof.Proof.KI.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The pieces the body's stores leave (last first) at the first point, with the body's triple over them. -/
noncomputable def runA (c : Dev nD) (i : grid0.Coords) (arg3 : Memref sig .tc .vmem S8x256 .f32) (harg3 : arg3.IsWhole) (arg4 : Memref sig .tc .vmem S8x256 .f32) (harg4 : arg4.IsWhole) (arg5 : Memref sig .tc .vmem S8x128 .f32) (harg5 : arg5.IsWhole) (arg6 : Memref sig .tc .vmem S8x128 .f32) (harg6 : arg6.IsWhole) (hc0 : condFirst i) (hc1 : ¬condLast i)
    (x0 x1 : Vec F S8x256 .f32) :
    { LS : List (View.Piece (Elt F) S8x128 .f32) //
      ∀ (xi : Vec F S8x128 .f32) (E : Set ℕ) (K : PUnit → sProp 𝕄),
        iprop(owns (c : Thread nD τ) arg3 fullShare x0 ∗ owns (c : Thread nD τ) arg4 fullShare x1 ∗ owns (c : Thread nD τ) arg5 fullShare xi ∗ (∃ d, owns (c : Thread nD τ) arg6 fullShare d)
            ∗ (iprop(owns (c : Thread nD τ) arg3 fullShare x0 ∗ owns (c : Thread nD τ) arg4 fullShare x1 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc0__gini_sum_kernel i arg3 harg3 arg4 harg4 arg5 harg5 arg6 harg6) K } := by
  refine ⟨?_, fun xi E K => ?run⟩
  case run =>
    simp only [cc0__gini_sum_kernel_eq_skeleton]; unfold cc0__gini_sum_kernel_skel
    simp only [k0_part1_eq_skeleton]
    unfold owns
    iintro ⟨⟨%f0, %hf0, H0⟩, ⟨%f1, %hf1, H1⟩, ⟨%f2, %hf2, H2⟩, ⟨%ds, %fs, -, HS⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

end Cert.KernelIdeal.Hand

end
-- ==== Proof.KI.RunB.lean ====
/-
  The body of the pairwise-gap kernel run at a MIDDLE grid point (the point's sum is added to the accumulator the point before left; nothing is stored into the output block): on whole staging buffers holding the two input blocks,
  it ends with the inputs as they were and with the pieces its stores wrote, which the run finds.
-/
import proofs.«109390_j23502061044472_2_alg».proof.Proof.KI.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The pieces the body's stores leave (last first) at a middle point, with the body's triple over them. -/
noncomputable def runB (c : Dev nD) (i : grid0.Coords) (arg3 : Memref sig .tc .vmem S8x256 .f32) (harg3 : arg3.IsWhole) (arg4 : Memref sig .tc .vmem S8x256 .f32) (harg4 : arg4.IsWhole) (arg5 : Memref sig .tc .vmem S8x128 .f32) (harg5 : arg5.IsWhole) (arg6 : Memref sig .tc .vmem S8x128 .f32) (harg6 : arg6.IsWhole) (hc0 : ¬condFirst i) (hc1 : ¬condLast i)
    (x0 x1 : Vec F S8x256 .f32) (xs : Vec F S8x128 .f32) :
    { LS : List (View.Piece (Elt F) S8x128 .f32) //
      ∀ (xi : Vec F S8x128 .f32) (E : Set ℕ) (K : PUnit → sProp 𝕄),
        iprop(owns (c : Thread nD τ) arg3 fullShare x0 ∗ owns (c : Thread nD τ) arg4 fullShare x1 ∗ owns (c : Thread nD τ) arg5 fullShare xi ∗ owns (c : Thread nD τ) arg6 fullShare xs
            ∗ (iprop(owns (c : Thread nD τ) arg3 fullShare x0 ∗ owns (c : Thread nD τ) arg4 fullShare x1 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc0__gini_sum_kernel i arg3 harg3 arg4 harg4 arg5 harg5 arg6 harg6) K } := by
  refine ⟨?_, fun xi E K => ?run⟩
  case run =>
    simp only [cc0__gini_sum_kernel_eq_skeleton]; unfold cc0__gini_sum_kernel_skel
    simp only [k0_part1_eq_skeleton]
    unfold owns
    iintro ⟨⟨%f0, %hf0, H0⟩, ⟨%f1, %hf1, H1⟩, ⟨%f2, %hf2, H2⟩, ⟨%fs, %hfs, HS⟩, Hk⟩
    obtain rfl := harg3.eq_unread hf0; obtain rfl := harg4.eq_unread hf1; obtain rfl := harg5.eq_unread hf2; obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

end Cert.KernelIdeal.Hand

end
-- ==== Proof.KI.RunC.lean ====
/-
  The body of the pairwise-gap kernel run at the LAST grid point (the point's sum is added to the accumulator, and the accumulator is copied into the output block): on whole staging buffers holding the two input blocks,
  it ends with the inputs as they were and with the pieces its stores wrote, which the run finds.
-/
import proofs.«109390_j23502061044472_2_alg».proof.Proof.KI.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The pieces the body's stores leave (last first) at the last point, with the body's triple over them. -/
noncomputable def runC (c : Dev nD) (i : grid0.Coords) (arg3 : Memref sig .tc .vmem S8x256 .f32) (harg3 : arg3.IsWhole) (arg4 : Memref sig .tc .vmem S8x256 .f32) (harg4 : arg4.IsWhole) (arg5 : Memref sig .tc .vmem S8x128 .f32) (harg5 : arg5.IsWhole) (arg6 : Memref sig .tc .vmem S8x128 .f32) (harg6 : arg6.IsWhole) (hc0 : ¬condFirst i) (hc1 : condLast i)
    (x0 x1 : Vec F S8x256 .f32) (xs : Vec F S8x128 .f32) :
    Σ' (L5 : List (View.Piece (Elt F) S8x128 .f32)), { LS : List (View.Piece (Elt F) S8x128 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L5) ∗ (∃ f, arg6.view.loc (c : Thread nD τ) ↦[arg6.view.set]{fullShare} arg6.view.writes (Elt F) f LS)) -∗ K ⟨⟩))
          ⊢ wp frame (wpE (defs₀ (F := F)) Variants.none c none) E (cc0__gini_sum_kernel i arg3 harg3 arg4 harg4 arg5 harg5 arg6 harg6) K } := by
  refine ⟨?_, ?_, fun E K => ?run⟩
  case run =>
    simp only [cc0__gini_sum_kernel_eq_skeleton]; unfold cc0__gini_sum_kernel_skel
    simp only [k0_part1_eq_skeleton]
    unfold owns
    iintro ⟨⟨%f0, %hf0, H0⟩, ⟨%f1, %hf1, H1⟩, ⟨%d2, %f2, -, H2⟩, ⟨%fs, %hfs, HS⟩, Hk⟩
    obtain rfl := harg3.eq_unread hf0; obtain rfl := harg4.eq_unread hf1; obtain rfl := harg6.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS

end Cert.KernelIdeal.Hand

end
-- ==== Proof.KI.Data.lean ====
/-
  The proof data of the pairwise-gap kernel's pipeline and its body obligation.

  The accumulator is a scratch buffer the kernel keeps between grid points: after point `n` it holds `accAt n`
  — at the first point what clearing it and adding that point's sum leaves, at every later point what adding
  the point's sum to `accAt (n - 1)` leaves. The region invariant carries the accumulator at exactly these
  contents from one point to the next. The output block is stored at the last point only, with a copy of the
  accumulator; at every other point the window is idle and its buffer is handed back as it was found.
  Both input windows read the one attention array: each holds one half of the array's share.
-/
import proofs.«109390_j23502061044472_2_alg».proof.Proof.KI.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each kind of point leaves -/

/-- The first point's stores into the accumulator tile it, -/
theorem coverFirst (c : Dev nD) (t : Fin cfg0.N) (hc0 : condFirst (grid0.coords t)) (hc1 : ¬condLast (grid0.coords t))
    (x0 x1 : Vec F S8x256 .f32) (y : S8x128.Idx) :
    ∃ pc ∈ (runA c (grid0.coords t) (ms0 t) (hs0 t) (ms1 t) (hs1 t) (ms2 t) (hs2 t) accM (Memref.isWhole_whole _) hc0 hc1 x0 x1).1, y ∈ pc.1.set :=
  View.cover_of_tiledL (runA c (grid0.coords t) (ms0 t) (hs0 t) (ms1 t) (hs1 t) (ms2 t) (hs2 t) accM (Memref.isWhole_whole _) hc0 hc1 x0 x1).1 S8x128.size (by sl_kernel_rfl) y
/-- so the accumulator then holds their read-back. -/
def accFirst (c : Dev nD) (t : Fin cfg0.N) (hc0 : condFirst (grid0.coords t)) (hc1 : ¬condLast (grid0.coords t))
    (x0 x1 : Vec F S8x256 .f32) : Vec F S8x128 .f32 :=
  accV.read (Elt F) (accV.writes (Elt F) accV.junk (runA c (grid0.coords t) (ms0 t) (hs0 t) (ms1 t) (hs1 t) (ms2 t) (hs2 t) accM (Memref.isWhole_whole _) hc0 hc1 x0 x1).1)

/-- A middle point's store into the accumulator covers it, -/
theorem coverMid (c : Dev nD) (t : Fin cfg0.N) (hc0 : ¬condFirst (grid0.coords t)) (hc1 : ¬condLast (grid0.coords t))
    (x0 x1 : Vec F S8x256 .f32) (xs : Vec F S8x128 .f32) (y : S8x128.Idx) :
    ∃ pc ∈ (runB c (grid0.coords t) (ms0 t) (hs0 t) (ms1 t) (hs1 t) (ms2 t) (hs2 t) accM (Memref.isWhole_whole _) hc0 hc1 x0 x1 xs).1, y ∈ pc.1.set :=
  View.cover_of_tiledL (runB c (grid0.coords t) (ms0 t) (hs0 t) (ms1 t) (hs1 t) (ms2 t) (hs2 t) accM (Memref.isWhole_whole _) hc0 hc1 x0 x1 xs).1 S8x128.size (by sl_kernel_rfl) y
/-- and leaves this in it. -/
def accMid (c : Dev nD) (t : Fin cfg0.N) (hc0 : ¬condFirst (grid0.coords t)) (hc1 : ¬condLast (grid0.coords t))
    (x0 x1 : Vec F S8x256 .f32) (xs : Vec F S8x128 .f32) : Vec F S8x128 .f32 :=
  accV.read (Elt F) (accV.writes (Elt F) accV.junk (runB c (grid0.coords t) (ms0 t) (hs0 t) (ms1 t) (hs1 t) (ms2 t) (hs2 t) accM (Memref.isWhole_whole _) hc0 hc1 x0 x1 xs).1)

/-- The last point's store into the accumulator covers it, -/
theorem coverLastAcc (c : Dev nD) (t : Fin cfg0.N) (hc0 : ¬condFirst (grid0.coords t)) (hc1 : condLast (grid0.coords t))
    (x0 x1 : Vec F S8x256 .f32) (xs : Vec F S8x128 .f32) (y : S8x128.Idx) :
    ∃ pc ∈ (runC c (grid0.coords t) (ms0 t) (hs0 t) (ms1 t) (hs1 t) (ms2 t) (hs2 t) accM (Memref.isWhole_whole _) hc0 hc1 x0 x1 xs).2.1, y ∈ pc.1.set :=
  View.cover_of_tiledL (runC c (grid0.coords t) (ms0 t) (hs0 t) (ms1 t) (hs1 t) (ms2 t) (hs2 t) accM (Memref.isWhole_whole _) hc0 hc1 x0 x1 xs).2.1 S8x128.size (by sl_kernel_rfl) y
/-- leaving this in it, -/
def accLast (c : Dev nD) (t : Fin cfg0.N) (hc0 : ¬condFirst (grid0.coords t)) (hc1 : condLast (grid0.coords t))
    (x0 x1 : Vec F S8x256 .f32) (xs : Vec F S8x128 .f32) : Vec F S8x128 .f32 :=
  accV.read (Elt F) (accV.writes (Elt F) accV.junk (runC c (grid0.coords t) (ms0 t) (hs0 t) (ms1 t) (hs1 t) (ms2 t) (hs2 t) accM (Memref.isWhole_whole _) hc0 hc1 x0 x1 xs).2.1)
/-- and its store into the output block covers that, -/
theorem coverLastOut (c : Dev nD) (t : Fin cfg0.N) (hc0 : ¬condFirst (grid0.coords t)) (hc1 : condLast (grid0.coords t))
    (x0 x1 : Vec F S8x256 .f32) (xs : Vec F S8x128 .f32) (y : S8x128.Idx) :
    ∃ pc ∈ (runC c (grid0.coords t) (ms0 t) (hs0 t) (ms1 t) (hs1 t) (ms2 t) (hs2 t) accM (Memref.isWhole_whole _) hc0 hc1 x0 x1 xs).1, y ∈ pc.1.set :=
  View.cover_of_tiledL (runC c (grid0.coords t) (ms0 t) (hs0 t) (ms1 t) (hs1 t) (ms2 t) (hs2 t) accM (Memref.isWhole_whole _) hc0 hc1 x0 x1 xs).1 S8x128.size (by sl_kernel_rfl) y
/-- leaving this in the output block. -/
def outLast (c : Dev nD) (t : Fin cfg0.N) (hc0 : ¬condFirst (grid0.coords t)) (hc1 : condLast (grid0.coords t))
    (x0 x1 : Vec F S8x256 .f32) (xs : Vec F S8x128 .f32) : Vec F S8x128 .f32 :=
  outV.read (Elt F) (outV.writes (Elt F) outV.junk (runC c (grid0.coords t) (ms0 t) (hs0 t) (ms1 t) (hs1 t) (ms2 t) (hs2 t) accM (Memref.isWhole_whole _) hc0 hc1 x0 x1 xs).1)

/-! ## The accumulator after each point -/

/-- What the accumulator holds after the body at position `n`: the recursion over the grid's points. -/
def accAt (c : Dev nD) : (n : ℕ) → n < cfg0.N → Vec F S8x128 .f32
  | 0, hn => accFirst c ⟨0, hn⟩ ((hcondFirst ⟨0, hn⟩).mpr rfl) (fun h => (fun h => by (try dsimp only at h); omega) ((hcondLast ⟨0, hn⟩).mp h)) (iblk m c 0 ⟨0, hn⟩) (iblk m c 1 ⟨0, hn⟩)
  | n + 1, hn =>
    if h1 : n + 1 = 255 then
      accLast c ⟨n + 1, hn⟩ (fun h => (fun h => by (try dsimp only at h); omega) ((hcondFirst ⟨n + 1, hn⟩).mp h)) ((hcondLast ⟨n + 1, hn⟩).mpr h1) (iblk m c 0 ⟨n + 1, hn⟩) (iblk m c 1 ⟨n + 1, hn⟩) (accAt c n (Nat.lt_of_succ_lt hn))
    else
      accMid c ⟨n + 1, hn⟩ (fun h => (fun h => by (try dsimp only at h); omega) ((hcondFirst ⟨n + 1, hn⟩).mp h)) (fun h => h1 ((hcondLast ⟨n + 1, hn⟩).mp h)) (iblk m c 0 ⟨n + 1, hn⟩) (iblk m c 1 ⟨n + 1, hn⟩) (accAt c n (Nat.lt_of_succ_lt hn))

theorem accAt_first (c : Dev nD) (t : Fin cfg0.N) (h0 : t.val = 0) (h1 : ¬t.val = 255) :
    accAt m c t.val t.isLt = accFirst c t ((hcondFirst t).mpr h0) (fun h => h1 ((hcondLast t).mp h)) (iblk m c 0 t) (iblk m c 1 t) := by
  obtain ⟨n, hn⟩ := t
  cases n with
  | zero => exact rfl
  | succ n => exact absurd h0 (Nat.succ_ne_zero n)

theorem accAt_mid (c : Dev nD) (t : Fin cfg0.N) (h0 : ¬t.val = 0) (h1 : ¬t.val = 255) :
    accAt m c t.val t.isLt = accMid c t (fun h => h0 ((hcondFirst t).mp h)) (fun h => h1 ((hcondLast t).mp h)) (iblk m c 0 t) (iblk m c 1 t)
      (accAt m c (t.val - 1) (Nat.lt_of_le_of_lt (Nat.sub_le _ _) t.isLt)) := by
  obtain ⟨n, hn⟩ := t
  cases n with
  | zero => exact absurd rfl h0
  | succ n => exact (dif_neg h1).trans rfl

theorem accAt_last (c : Dev nD) (t : Fin cfg0.N) (h0 : ¬t.val = 0) (h1 : t.val = 255) :
    accAt m c t.val t.isLt = accLast c t (fun h => h0 ((hcondFirst t).mp h)) ((hcondLast t).mpr h1) (iblk m c 0 t) (iblk m c 1 t)
      (accAt m c (t.val - 1) (Nat.lt_of_le_of_lt (Nat.sub_le _ _) t.isLt)) := by
  obtain ⟨n, hn⟩ := t
  cases n with
  | zero => exact absurd rfl h0
  | succ n => exact (dif_pos h1).trans rfl

/-- What the output block's staging buffer holds after the body at point `t`: the copy of the accumulator at the last
    point; at the other points the window is idle, nothing consults this, and the accumulator's contents stand in. -/
def outAt (c : Dev nD) (t : Fin cfg0.N) : Vec F S8x128 .f32 :=
  if h1 : t.val = 255 then
    outLast c t (fun h => (fun h => by omega) ((hcondFirst t).mp h)) ((hcondLast t).mpr h1) (iblk m c 0 t) (iblk m c 1 t)
      (accAt m c (t.val - 1) (Nat.lt_of_le_of_lt (Nat.sub_le _ _) t.isLt))
  else accAt m c t.val t.isLt

theorem outAt_last (c : Dev nD) (t : Fin cfg0.N) (h0 : ¬t.val = 0) (h1 : t.val = 255) :
    outAt m c t = outLast c t (fun h => h0 ((hcondFirst t).mp h)) ((hcondLast t).mpr h1) (iblk m c 0 t) (iblk m c 1 t)
      (accAt m c (t.val - 1) (Nat.lt_of_le_of_lt (Nat.sub_le _ _) t.isLt)) := by
  unfold outAt; exact (dif_pos h1).trans rfl

/-! ## The region invariant -/

/-- Before position `n`: before the first point the accumulator at anything (what the launch hands over); afterwards
    at what the point before left in it; and the generator register at some state. -/
def PhiS (c : Dev nD) : (n : ℕ) → n ≤ cfg0.N → sProp 𝕄
  | 0, _ => Pipeline.ΦA spec0 c
  | n + 1, hn => iprop(iprop(owns (c : Thread nD τ) accM fullShare (accAt m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) accM fullShare (accAt m c n hn)) ∗ (∃ r, prngReg c r)) := rfl
theorem PhiS_pos (c : Dev nD) (n : ℕ) (h : n ≤ cfg0.N) (hz : n ≠ 0) :
    PhiS m c n h = iprop(iprop(owns (c : Thread nD τ) accM fullShare (accAt m c (n - 1) (by omega))) ∗ (∃ r, prngReg c r)) := by
  cases n with
  | zero => exact absurd rfl hz
  | succ n => rfl

/-! ## The pipeline's proof data -/

/-- The proof data on core `c`: the arrays as the region finds them; after the body each input's buffer at its block,
    the output's at `outAt`; the invariant `PhiS`; the attention array's share halved between the two windows that
    read it; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = outAt m c t := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

theorem leaves0 (c : Dev nD) (t : Fin cfg0.N) : (dats m 0 c).leavesExact 0 t = owns (c : Thread nD τ) (ms0 t) fullShare (iblk m c 0 t) := by
  unfold Dat.leavesExact; rw [live0 t, after0]
theorem leaves1 (c : Dev nD) (t : Fin cfg0.N) : (dats m 0 c).leavesExact 1 t = owns (c : Thread nD τ) (ms1 t) fullShare (iblk m c 1 t) := by
  unfold Dat.leavesExact; rw [live1 t, after1]

set_option maxHeartbeats 4000000 in
/-- The body at any point: the inputs' buffers hold their blocks; the point is the first, a middle one or the last; the
    invariant hands over the accumulator at what the point before left (at anything at the first point) and takes it
    back at this point's contents; the output block is stored at the last point and handed back untouched elsewhere. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ, leaves0, leaves1]
  have hN : t.val < 256 := lt_of_lt_of_eq t.isLt (show cfg0.N = 256 from N_0)
  by_cases h0 : t.val = 0
  · have h1 : ¬t.val = 255 := by omega
    rw [Dat.leavesExact_idle (dats m 0 c) 2 t (idle2 t (fun h => h1 ((hcondLast t).mp h))) (noFlush2 t (fun h => h1 ((hcondLast t).mp h)))]
    rw [accAt_first m c t h0 h1]
    unfold accFirst; (try dsimp only)
    rw [PhiS_castSucc m c t, PhiS_zero m c _ _ h0, PhiA_eq]
    iintro ⟨⟨HS, Hg⟩, Ho, ⟨%d0, H0⟩, ⟨%d1, H1⟩, ⟨%d2, H2⟩⟩
    iapply ((runA c (grid0.coords t) _ _ _ _ _ _ _ _ ((hcondFirst t).mpr h0) (fun h => h1 ((hcondLast t).mp h)) (iblk m c 0 t) (iblk m c 1 t)).2 _ Set.univ _)
    isplitl [H0]; · iexact H0
    isplitl [H1]; · iexact H1
    isplitl [H2]; · iexact H2
    isplitl [HS]; · iexact HS
    iintro ⟨H0, H1, H2, ⟨%es, HS⟩⟩
    isplitl [HS Hg]
    · isplitl [HS]
      · unfold owns; iexists _; isplitr
        swap; · iexact HS
        ipureintro; exact View.read_writes_of_cover _ _ _ _ _ (coverFirst c t _ _ _ _)
      iexact Hg
    isplitl [Ho]; · iexact Ho
    isplitl [H0]; · iexact H0
    isplitl [H1]; · iexact H1
    iexists _; iexact H2
  · by_cases h1 : t.val = 255
    · rw [show (dats m 0 c).leavesExact 2 t = owns (c : Thread nD τ) (ms2 t) fullShare ((dats m 0 c).after 2 t) from by
        unfold Dat.leavesExact; rw [live2 t ((hcondLast t).mpr h1)], after2]
      rw [outAt_last m c t h0 h1, accAt_last m c t h0 h1]
      unfold accLast outLast; (try dsimp only)
      rw [PhiS_castSucc m c t, PhiS_pos m c _ _ h0]
      iintro ⟨⟨HS, Hg⟩, Ho, ⟨%d0, H0⟩, ⟨%d1, H1⟩, ⟨%d2, H2⟩⟩
      iapply ((runC c (grid0.coords t) _ _ _ _ _ _ _ _ (fun h => h0 ((hcondFirst t).mp h)) ((hcondLast t).mpr h1) (iblk m c 0 t) (iblk m c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS Hg]
      · isplitl [HS]
        · unfold owns; iexists _; isplitr
          swap; · iexact HS
          ipureintro; exact View.read_writes_of_cover _ _ _ _ _ (coverLastAcc c t _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (coverLastOut c t _ _ _ _ _)
    · rw [Dat.leavesExact_idle (dats m 0 c) 2 t (idle2 t (fun h => h1 ((hcondLast t).mp h))) (noFlush2 t (fun h => h1 ((hcondLast t).mp h)))]
      rw [accAt_mid m c t h0 h1]
      unfold accMid; (try dsimp only)
      rw [PhiS_castSucc m c t, PhiS_pos m c _ _ h0]
      iintro ⟨⟨HS, Hg⟩, Ho, ⟨%d0, H0⟩, ⟨%d1, H1⟩, ⟨%d2, H2⟩⟩
      iapply ((runB c (grid0.coords t) _ _ _ _ _ _ _ _ (fun h => h0 ((hcondFirst t).mp h)) (fun h => h1 ((hcondLast t).mp h)) (iblk m c 0 t) (iblk m c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hg]
      · isplitl [HS]
        · unfold owns; iexists _; isplitr
          swap; · iexact HS
          ipureintro; exact View.read_writes_of_cover _ _ _ _ _ (coverMid c t _ _ _ _ _)
        iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the accumulator back at some contents. -/
theorem hout (c : Dev nD) : (dats m 0 c).Φ (Fin.last cfg0.N) ⊢ Pipeline.ΦA spec0 c := by
  have hN : cfg0.N = 256 := N_0
  rw [show (dats m 0 c).Φ (Fin.last cfg0.N) = PhiS m c (Fin.last cfg0.N).val (Nat.le_of_lt_succ (Fin.last cfg0.N).isLt) from rfl,
    PhiS_pos m c _ _ (by rw [Fin.val_last]; omega), PhiA_eq]
  iintro ⟨HS, Hg⟩
  isplitl [HS]
  · iexists _; iexact HS
  iexact Hg

end Cert.KernelIdeal.Hand

end
-- ==== Proof.KI.Launch.lean ====
/-
  The launch of the pairwise-gap kernel's region and the run of the whole program.

  Two of the three windows read the one attention array, so the array's points-to is split in two halves at
  the region's entry, one per window, and joined again at its exit; the third window owns the output array
  outright. After the region seven host lines read the output array's first entry and combine it with the
  cross-entropy term; they run within the unscoped buffers, at the contents the region leaves.
-/
import proofs.«109390_j23502061044472_2_alg».proof.Proof.KI.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays behind the windows -/

/-- Behind the three windows stand two distinct arrays: the attention array (twice) and the output array. -/
theorem arrImage : (Finset.univ.image (Pipeline.arrRef spec0) : Finset (Ref sig .tc)) = [main_arg0, main_v6].toFinset := by decide

/-- The distinct arrays, each whole at the full share. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_v6) ↦{fullShare} W main_v6)) := by
  unfold Pipeline.arrBufs
  rw [bigSep_eq_bigSepL_of_eq [main_arg0, main_v6] arrImage (by decide)]
  rfl

/-- The pipeline's arrays, window by window: the attention array at its left half for the left-columns window, at its
    right half for the right-columns window, the output array outright. -/
theorem arrays_eq3 (c : Dev nD) (G : (w : Fin cfg0.W) → Buf (Elt F) ((cfg0.win w).arr.view.loc (c : Thread nD τ))) :
    ((dats m 0 c).arrays G : sProp 𝕄)
      = iprop((((c : Thread nD τ).loc main_arg0) ↦{fullShare.left} G 0) ∗ (((c : Thread nD τ).loc main_arg0) ↦{fullShare.right} G 1)
          ∗ (((c : Thread nD τ).loc main_v6) ↦{fullShare} G 2)) := by
  unfold Dat.arrays
  rw [bigSep_W0, (arr_whole0 0).set_eq_univ, (arr_whole0 2).set_eq_univ]
  rfl

/-- At the region's entry the attention array's full share splits into the two windows' halves. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq, arrays_eq3]
  iintro ⟨Ha, Ho⟩
  ihave Hs := (pointsTo_share (PosShare.mem_left_op_right fullShare)).1 $$ Ha
  icases Hs with ⟨Hl, Hr⟩
  isplitl [Hl]; · iexact Hl
  isplitl [Hr]; · iexact Hr
  iexact Ho

/-! ## The lines after the region -/

/-- The buffers' contents at the region's exit: the output array at what the write-backs leave, every other buffer as
    at the entry. -/
def Wexit (c : Dev nD) : Valuation τ sig (Elt F) :=
  Function.update (V0 m c) (Proc.devRef .tc main_v6) ((dats m 0 c).arrAt 2 cfg0.N)

/-- The buffers' contents after the lines that follow the region. -/
def Vend (c : Dev nD) (b : Ref sig .tc) : Buf (Elt F) ((c : Thread nD τ).loc b) :=
  StableHlo.after (hostOps1 (F := F)) (Wexit m c) (Proc.devRef .tc b)

theorem Wexit_out (c : Dev nD) : Wexit m c (Proc.devRef .tc main_v6) = (dats m 0 c).arrAt 2 cfg0.N := by
  unfold Wexit; exact Function.update_self _ _ _

theorem Wexit_of_ne (c : Dev nD) (b : Ref sig .tc) (hb : b ≠ main_v6) : Wexit m c (Proc.devRef .tc b) = V m c b := by
  unfold Wexit; exact Function.update_of_ne (fun e => hb (Proc.devRef_injective _ e)) _ _

/-- The buffers that bypass the region are not the output array: at the exit they hold what they held at the entry. -/
theorem rest_exit (c : Dev nD) :
    (Pipeline.unscopedRest (Ix := Unit) (Name := ℕ) (U := UR sig nD τ) (Lvl := ℕ) spec0 c (fun b => Wexit m c (Proc.devRef .tc b)) : sProp 𝕄)
      = Pipeline.unscopedRest spec0 c (V m c) := by
  unfold Pipeline.unscopedRest
  exact bigSep_congr fun b hb => by
    dsimp only
    rw [Wexit_of_ne m c b (fun e => (Finset.mem_sdiff.mp hb).2 (Finset.mem_image.mpr ⟨2, Finset.mem_univ _, e.symm⟩))]

/-- The unscoped buffers held at a valuation: the two arrays and the buffers that bypass the region. -/
theorem held_of (c : Dev nD) (W : Valuation τ sig (Elt F)) :
    (StableHlo.held (c : Thread nD τ) (Pipeline.ucRefs τ sig) W : sProp 𝕄)
      = iprop(iprop((((c : Thread nD τ).loc main_arg0) ↦{fullShare} W (Proc.devRef .tc main_arg0)) ∗ (((c : Thread nD τ).loc main_v6) ↦{fullShare} W (Proc.devRef .tc main_v6)))
          ∗ Pipeline.unscopedRest spec0 c (fun b => W (Proc.devRef .tc b))) := by
  rw [← Pipeline.unscopedBufs_held (Ix := Unit) (Name := ℕ) (U := UR sig nD τ) (Lvl := ℕ) c W,
    Pipeline.unscopedBufs_split₀ cfgs (0 : Fin 1) winFacts₀0.arr_unscoped c _, arrBufs_eq]

/-- The references the lines after the region write: their own results. -/
abbrev tailW : List (Ref sig .tc) := [main_v7, main_v8, main_cst_1, main_v9, main_cst_2, main_v10, main_v11]
theorem tail_writes : (hostOps1 : List (HloOp τ sig (Elt F))).Forall fun op => op.writes ⊆ (tailW.map (Proc.devRef (τ := τ) .tc)).toFinset := by
  simp only [List.Forall]
  refine ⟨?_, ?_, ?_, ?_, ?_, ?_, ?_⟩ <;>
    (simp only [StableHlo.nullary_writes, StableHlo.unary_writes, StableHlo.binary_writes, StableHlo.ternary_writes, StableHlo.reshape_writes, Finset.singleton_subset_iff, List.mem_toFinset]; exact List.mem_map_of_mem (by decide))
/-- A buffer none of those lines writes keeps its contents through them. -/
theorem after_tail_of (W : Valuation τ sig (Elt F)) (r : Ref sig .tc) (h : r ∉ tailW) :
    StableHlo.after (hostOps1 (F := F)) W (Proc.devRef .tc r) = W (Proc.devRef .tc r) :=
  StableHlo.after_of_writes_sub hostOps1 _ tail_writes h

/-- The lines after the region touch unscoped TensorCore buffers only, -/
theorem tail_sub : ∀ ops ∈ ([hostOps1] : List (List (HloOp τ sig (Elt F)))), ∀ op ∈ ops, op.bufs ⊆ Pipeline.ucRefs τ sig := by
  intro ops hops op hop
  simp only [List.mem_cons, List.mem_nil_iff, or_false] at hops
  rcases hops with rfl
  exact Pipeline.sub_ucRefs op ((List.forall_iff_forall_mem.mp hostOps1_sub) op hop)
/-- and allocate nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- The pipeline's arrays at the region's exit: the attention array, never written, at its entry contents in both
    halves; the output array at what the write-backs leave. -/
theorem arrays_exit (c : Dev nD) :
    ((dats m 0 c).arrays ((dats m 0 c).arrAt · cfg0.N) : sProp 𝕄)
      = iprop((((c : Thread nD τ).loc main_arg0) ↦{fullShare.left} V m c main_arg0) ∗ (((c : Thread nD τ).loc main_arg0) ↦{fullShare.right} V m c main_arg0)
          ∗ (((c : Thread nD τ).loc main_v6) ↦{fullShare} (dats m 0 c).arrAt 2 cfg0.N)) := by
  have hin0 : (dats m 0 c).arrAt 0 cfg0.N = V m c main_arg0 := ((dats m 0 c).arrAt_in 0 rfl _).trans (A_eq m c 0)
  have hin1 : (dats m 0 c).arrAt 1 cfg0.N = V m c main_arg0 := ((dats m 0 c).arrAt_in 1 rfl _).trans (A_eq m c 1)
  rw [arrays_eq3]; (try dsimp only); rw [hin0, hin1]

set_option backward.isDefEq.respectTransparency.types false in
/-- The lines after the region, run from its exit: the two halves of the attention array join, the lines run within the
    unscoped buffers, and the halves part again. -/
theorem htail (c : Dev nD) (Q' : PUnit → sProp 𝕄) :
    iprop((iprop((dats m 0 c).arrays ((dats m 0 c).arrAt · cfg0.N) ∗ Pipeline.unscopedRestP (Ix := Unit) (Name := ℕ) (U := UR sig nD τ) (Lvl := ℕ) Pipeline.Prefetch.none spec0 c (Vend m c)) -∗ Q' ⟨⟩)
        ∗ boundary (c : Thread nD τ) ∗ (dats m 0 c).arrays ((dats m 0 c).arrAt · cfg0.N)
        ∗ Pipeline.unscopedRestP (Ix := Unit) (Name := ℕ) (U := UR sig nD τ) (Lvl := ℕ) Pipeline.Prefetch.none spec0 c (V m c))
      ⊢ wp frame (wpE (Pipeline.defs (pcfgs (F := F)) defs₀) (Variants.lift Variants.none) (c : Thread nD τ) none) Set.univ
          (Pipeline.chain ([hostOps1].map StableHlo.seq)) Q' := by
  have hW : (StableHlo.held (c : Thread nD τ) (Pipeline.ucRefs τ sig) (Wexit m c) : sProp 𝕄)
      = iprop(iprop((((c : Thread nD τ).loc main_arg0) ↦{fullShare} V m c main_arg0) ∗ (((c : Thread nD τ).loc main_v6) ↦{fullShare} (dats m 0 c).arrAt 2 cfg0.N))
          ∗ Pipeline.unscopedRest spec0 c (V m c)) := by
    rw [held_of, Wexit_out, Wexit_of_ne m c main_arg0 (by decide), rest_exit]
  have hW' : (StableHlo.held (c : Thread nD τ) (Pipeline.ucRefs τ sig) (StableHlo.after ([hostOps1] : List (List (HloOp τ sig (Elt F)))).flatten (Wexit m c)) : sProp 𝕄)
      = iprop(iprop((((c : Thread nD τ).loc main_arg0) ↦{fullShare} V m c main_arg0) ∗ (((c : Thread nD τ).loc main_v6) ↦{fullShare} (dats m 0 c).arrAt 2 cfg0.N))
          ∗ Pipeline.unscopedRest spec0 c (Vend m c)) := by
    rw [held_of, List.flatten_cons, List.flatten_nil, List.append_nil, after_tail_of _ main_arg0 (by decide), after_tail_of _ main_v6 (by decide),
      Wexit_out, Wexit_of_ne m c main_arg0 (by decide)]
    rfl
  rw [arrays_exit, Pipeline.unscopedRestP_none, Pipeline.unscopedRestP_none, ← List.append_nil ([hostOps1].map StableHlo.seq)]
  iintro ⟨Hk, Hb, ⟨Hl, Hr, Ho⟩, Hz⟩
  ihave Ha := (pointsTo_share (PosShare.mem_left_op_right fullShare)).2 $$ [Hl Hr]
  · isplitl [Hl]; · iexact Hl
    iexact Hr
  ihave Hh := (Entails.of_eq hW.symm) $$ [Ha Ho Hz]
  · isplitl [Ha Ho]
    · isplitl [Ha]; · iexact Ha
      iexact Ho
    iexact Hz
  iapply (Pipeline.wp_seqs_then (pcfgs (F := F)) defs₀ Variants.none c (Pipeline.ucRefs τ sig) [] [hostOps1] tail_sub tail_fresh (Wexit m c)) $$ [Hb Hh]
  · isplitl [Hb]; · iexact Hb
    iexact Hh
  iintro Hb
  rw [Pipeline.chain_nil, wp_pure, hW']
  imodintro
  iapply Hk
  icases Hb with ⟨-, ⟨⟨Ha, Ho⟩, Hz⟩⟩
  ihave Hs := (pointsTo_share (PosShare.mem_left_op_right fullShare)).1 $$ Ha
  icases Hs with ⟨Hl, Hr⟩
  isplitl [Hl Hr Ho]
  · isplitl [Hl]; · iexact Hl
    isplitl [Hr]; · iexact Hr
    iexact Ho
  iexact Hz

/-! ## The run -/

/-- What the run concludes: every window's array at what the write-backs leave, every other unscoped buffer at the
    contents after the lines that follow the region. -/
def RunPost (r : PUnit × MemSt nD τ sig (Elt F)) : Prop :=
  ∀ c : Dev nD, (∀ w, r.2.mem (((cfg0).spec w).arr.view.loc (c.tc : Thread nD τ)) = (dats m 0 c).arrAt w cfg0.N)
    ∧ ∀ b ∈ Pipeline.restRefsP sig Pipeline.Prefetch.none spec0, r.2.mem ((c.tc : Thread nD τ).loc b) = Vend m c b

set_option backward.isDefEq.respectTransparency.types false in
set_option maxHeartbeats 1600000 in
/-- At the compiled mesh, for any float values, from any memory with zero counters: every weakly fair execution of @main
    terminates without a fault, in a state as `RunPost` says. -/
theorem run_main : θ_run defs (onTc (τ := τ) (main (F := F))) (s₀ m ρ) (RunPost m) := by
  classical
  exact Pipeline.θ_run_region_pf_tail (fun q => (cfgs q).toPCfg (Val := Elt F)) (fun q => (cfgs q).toPCfg_adm) (dats m) () cellOf_inj (0 : Fin 1) winFacts₀0
    (Pipeline.OwnSemFacts.none spec0) (Pipeline.PreFacts.none _) emb₁ defs₀ Variants.none m ρ main
    (fun _ => Pipeline.chain ([hostOps1].map StableHlo.seq)) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (Vend m c))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := fun c Q' => htail m c Q')
    (QY := fun c s => ∀ b ∈ Pipeline.restRefsP sig Pipeline.Prefetch.none spec0, s.mem ((c.tc : Thread nD τ).loc b) = Vend m c b)
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (Vend m c) s')
      isplitl [HU] <;> iassumption)
    (hQ := fun s h c => ⟨(h c).1, (h c).2.2⟩)

end Cert.KernelIdeal.Hand

end
-- ==== Proof.KI.Entry.lean ====
/-
  What the host lines around the region leave alone.

  The 43 lines before the region compute the cross-entropy term into buffers of their own: none of them writes one of
  the three argument arrays, so the region finds each as it was launched. The seven lines after the region write seven
  buffers of their own and nothing else.
-/
import proofs.«109390_j23502061044472_2_alg».proof.Proof.KI.Base
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]

/-! ## No host line before the region writes an argument array -/

/-- The 32 × 2048 array is as launched when the region is entered. -/
theorem V_arg0 (m : (ℓ : Loc nD τ sig) → Buf (Elt F) ℓ) (c : Dev nD) :
    V m c main_arg0 = m ((c : Thread nD τ).loc main_arg0) := by
  dsimp only [V, V0, preOps]
  simp only [hostOps0, hostOps0_1, hostOps0_2, hostOps0_3, List.flatten_cons, List.flatten_nil, List.append_nil,
    List.cons_append, List.nil_append]
  after_results_simp

/-- So are the logits. -/
theorem V_arg1 (m : (ℓ : Loc nD τ sig) → Buf (Elt F) ℓ) (c : Dev nD) :
    V m c main_arg1 = m ((c : Thread nD τ).loc main_arg1) := by
  dsimp only [V, V0, preOps]
  simp only [hostOps0, hostOps0_1, hostOps0_2, hostOps0_3, List.flatten_cons, List.flatten_nil, List.append_nil,
    List.cons_append, List.nil_append]
  after_results_simp

/-- So are the labels. -/
theorem V_arg2 (m : (ℓ : Loc nD τ sig) → Buf (Elt F) ℓ) (c : Dev nD) :
    V m c main_arg2 = m ((c : Thread nD τ).loc main_arg2) := by
  dsimp only [V, V0, preOps]
  simp only [hostOps0, hostOps0_1, hostOps0_2, hostOps0_3, List.flatten_cons, List.flatten_nil, List.append_nil,
    List.cons_append, List.nil_append]
  after_results_simp

/-! ## The seven lines after the region write seven buffers of their own -/

/-- Every buffer but the seven those lines write is after them as it was before. -/
theorem tail_keeps (W : Valuation τ sig (Elt F)) (b : Ref sig .tc)
    (hb : b ∉ [main_v7, main_v8, main_cst_1, main_v9, main_cst_2, main_v10, main_v11]) :
    StableHlo.after (hostOps1 (F := F)) W (Proc.devRef .tc b) = W (Proc.devRef .tc b) :=
  StableHlo.after_of_writes_sub hostOps1 W (by
    simp only [hostOps1, List.Forall, StableHlo.unary_writes, StableHlo.reshape_writes, StableHlo.nullary_writes,
      StableHlo.binary_writes, Finset.singleton_subset_iff, List.mem_toFinset]
    exact ⟨List.mem_map_of_mem (by decide), List.mem_map_of_mem (by decide), List.mem_map_of_mem (by decide),
      List.mem_map_of_mem (by decide), List.mem_map_of_mem (by decide), List.mem_map_of_mem (by decide),
      List.mem_map_of_mem (by decide)⟩) hb

end Cert.KernelIdeal.Hand

end
-- ==== Proof.KI.Frame.lean ====
/-
  The frame of the pairwise-gap program: it runs to the end without a fault and its three argument arrays end as
  they began. The attention array is only ever read by the region's two input windows; the logits and labels are
  read by the host lines before the region; no line, before or after, writes an argument.
-/
import proofs.«109390_j23502061044472_2_alg».proof.Proof.KI.Launch
import proofs.«109390_j23502061044472_2_alg».proof.Proof.KI.Entry

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem arg1_bypasses : main_arg1 ∈ Pipeline.restRefsP sig Pipeline.Prefetch.none spec0 := by decide
theorem arg2_bypasses : main_arg2 ∈ Pipeline.restRefsP sig Pipeline.Prefetch.none spec0 := by decide

/-- A buffer that is neither the output array nor written by the lines after the region ends at its entry contents. -/
theorem Vend_keep (c : Dev nD) (b : Ref sig .tc) (hb : b ∉ tailW) (hb' : b ≠ main_v6) : Vend m c b = V m c b := by
  unfold Vend; rw [after_tail_of _ b hb, Wexit_of_ne m c b hb']

/-- The frame, at any float values: every weakly fair execution terminates without a fault and leaves the three
    arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h c).1 0).trans ((((dats m 0 c).arrAt_in 0 rfl _).trans (A_eq m c 0)).trans (V_arg0 m c)),
     ((h c).2 main_arg1 arg1_bypasses).trans ((Vend_keep m c main_arg1 (by decide) (by decide)).trans (V_arg1 m c)),
     ((h c).2 main_arg2 arg2_bypasses).trans ((Vend_keep m c main_arg2 (by decide) (by decide)).trans (V_arg2 m c))⟩)
    (run_main m ρ)

end Cert.KernelIdeal.Hand

end
-- ==== Proof.Payload.lean ====
/-
  The kernel body's arithmetic, read at an index at the ideal values.

  The first stored value is the zero splat. The second is the accumulator plus one number, the same at every
  index: each entry `v` of the two 8 × 256 operands becomes `log (v + ε)`; the left logarithms are laid along the
  second axis and the right ones along the third axis of an 8 × 256 × 256 array; the absolute differences are
  summed over the third axis, then over the second, then over the 8 rows. That number is the point's gap sum.
-/
import proofs.«109390_j23502061044472_2_alg».proof.Proof.Spec
import proofs.«109390_j23502061044472_2_alg».proof.Proof.Gen.KernelIdeal.Skeleton
import Idealize.ShloMosaic.Lib.ValueLayout

noncomputable section

namespace Cert.Proof.Gini

open Idealize.ShloMosaic Idealize.ShloMosaic.ValueIdx Cert.KernelIdeal Cert.KernelIdeal.Gen

section Layout
variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a]` array cast to `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

end Layout

section Sums

/-- A `[1, n, 1]` index set is its middle coordinate's range. -/
def idxEquiv1a1 (n : ℕ) : (⟨3, ![1, n, 1]⟩ : Shape).Idx ≃ Fin n where
  toFun i := i 1
  invFun b := ix3 (0 : Fin 1) b (0 : Fin 1)
  left_inv i := by
    funext d
    match d with
    | ⟨0, _⟩ => exact Fin.ext (by have h : (i 0).val < 1 := (i 0).isLt; show 0 = (i 0).val; omega)
    | ⟨1, _⟩ => rfl
    | ⟨2, _⟩ => exact Fin.ext (by have h : (i 2).val < 1 := (i 2).isLt; show 0 = (i 2).val; omega)
  right_inv _ := rfl

/-- So a sum over it is the sum over the middle coordinate. -/
theorem sum_idx1a1 {M : Type} [AddCommMonoid M] {n : ℕ} (f : (⟨3, ![1, n, 1]⟩ : Shape).Idx → M) :
    ∑ i, f i = ∑ b : Fin n, f (ix3 (0 : Fin 1) b (0 : Fin 1)) :=
  (Equiv.sum_comp (idxEquiv1a1 n).symm f).symm

/-- A sum over the last axis of a rank-3 array, read at `(i, j)`. -/
theorem multiReduction_add_axis2_apply {a b c : ℕ} (src : FVec Ideal ⟨3, ![a, b, c]⟩ .f32)
    (h : (⟨3, ![a, b, c]⟩ : Shape).Reduces [2] ⟨2, ![a, b]⟩) (hφ : FKind.Formats .f32)
    (hacc : (0x00000000#32 : BitVec 32) = 0x00000000#32) (i : Fin a) (j : Fin b) :
    multiReduction .add [2] ⟨2, ![a, b]⟩ src 0x00000000#32 h hφ hacc (ix2 i j) = ∑ k : Fin c, src (ix3 i j k) := by
  refine (Ideal.multiReduction_add_single src 0x00000000#32 h hφ hacc (ix2 i j)).trans ?_
  refine Finset.sum_congr rfl fun k _ => congrArg src ?_
  funext d
  match d with
  | ⟨0, _⟩ => rfl
  | ⟨1, _⟩ => rfl
  | ⟨2, _⟩ => rfl

/-- A sum over the last axis of a matrix, read at `i`. -/
theorem multiReduction_add_axis1_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext d
  match d with
  | ⟨0, _⟩ => rfl
  | ⟨1, _⟩ => rfl

/-- A sum over both non-leading axes of a `[1, n, 1]` array into `[1]`: the sum over the middle coordinate. -/
theorem multiReduction_add_1a1_apply {n : ℕ} (src : FVec Ideal ⟨3, ![1, n, 1]⟩ .f32)
    (h : (⟨3, ![1, n, 1]⟩ : Shape).Reduces [1, 2] ⟨1, ![1]⟩) (hφ : FKind.Formats .f32)
    (hacc : (0x00000000#32 : BitVec 32) = 0x00000000#32) (j : (⟨1, ![1]⟩ : Shape).Idx) :
    multiReduction .add [1, 2] ⟨1, ![1]⟩ src 0x00000000#32 h hφ hacc j
      = ∑ b : Fin n, src (ix3 (0 : Fin 1) b (0 : Fin 1)) := by
  refine (Ideal.multiReduction_add_total src 0x00000000#32 h
    (fun d => by match d with | ⟨0, _⟩ => rfl) hφ hacc j).trans ?_
  exact sum_idx1a1 src

end Sums

/-- The array of absolute differences at `(b, i, j)`: left entry `(b, i)` against right entry `(b, j)`. -/
theorem absdiff_apply (L R : FVec Ideal S8x256 .f32) (h1 : S8x256.ShapeCasts S8x256x1) (h2 : S8x256.ShapeCasts S8x1x256)
    (hb1 : S8x256x1.Broadcasts S8x256x256) (hb2 : S8x1x256.Broadcasts S8x256x256) (b : Fin 8) (i j : Fin 256) :
    absf (subf (broadcastTo S8x256x256 (shapeCast S8x256x1 L h1) hb1)
        (broadcastTo S8x256x256 (shapeCast S8x1x256 R h2) hb2)) (ix3 b i j)
      = max (L (ix2 b i) - R (ix2 b j)) (-(L (ix2 b i) - R (ix2 b j))) := by
  have e1 : broadcastTo S8x256x256 (shapeCast S8x256x1 L h1) hb1 (ix3 b i j) = L (ix2 b i) :=
    (broadcastTo_ab1_abc_apply _ _ b i j).trans (shapeCast_ab_ab1_apply _ _ b i 0)
  have e2 : broadcastTo S8x256x256 (shapeCast S8x1x256 R h2) hb2 (ix3 b i j) = R (ix2 b j) :=
    (broadcastTo_a1c_abc_apply _ _ b i j).trans (shapeCast_ab_a1b_apply _ _ b 0 j)
  exact congrArg₂ (fun u v : EReal => max (u - v) (-(u - v))) e1 e2

/-- The first stored value is zero everywhere. -/
theorem pay1_apply (y : S8x128.Idx) : k0_pay1 (F := Ideal) y = 0 := by
  unfold k0_pay1
  refine (congrFun (shapeCast_self _ _) y).trans ?_
  exact Ideal.ofBits_zero_f32

/-- The second stored value is the accumulator plus the point's gap sum, at every index. -/
theorem pay2_apply (x0 x1 : Vec Ideal S8x256 .f32) (a : Vec Ideal S8x128 .f32) (y : S8x128.Idx) :
    k0_pay2 (F := Ideal) x0 x1 a y = a y + pointGap x0 x1 := by
  unfold k0_pay2
  refine (congrFun (shapeCast_self _ _) y).trans ?_
  refine congrArg (fun u : EReal => a y + u) ?_
  refine (multiReduction_add_1a1_apply _ _ (.inl rfl) rfl _).trans ?_
  unfold pointGap
  refine Finset.sum_congr rfl fun b _ => ?_
  refine (shapeCast_ab_1ab_apply _ _ 0 b 0).trans ?_
  refine (shapeCast_a_a1_apply _ _ b 0).trans ?_
  refine (multiReduction_add_axis1_apply _ _ (.inl rfl) rfl b).trans ?_
  refine Finset.sum_congr rfl fun i _ => ?_
  refine (multiReduction_add_axis2_apply _ _ (.inl rfl) rfl b i).trans ?_
  refine Finset.sum_congr rfl fun j _ => ?_
  exact absdiff_apply _ _ _ _ _ _ b i j

end Cert.Proof.Gini

end
-- ==== Proof.SumLaws.lean ====
/-
  Two laws of finite sums on the extended reals.

  Dividing by the positive real `2·2048² = 2^23` is multiplying by the non-negative real `1/2^23`, and
  multiplication by a non-negative real distributes over addition on all of the extended reals, hence over
  any finite sum: dividing the total once equals adding the divided rows.

  The 4·8·8 grid points `t = 64·p + 8·q + r`, each with an 8 × 256 × 256 tile, enumerate the
  32 × 2048 × 2048 index set exactly once: `B = 8·p + b`, `I = 256·q + i`, `J = 256·r + j`.
-/
import proofs.«109390_j23502061044472_2_alg».proof.Proof.Spec

noncomputable section

namespace Cert.Proof.Gini

open Idealize.ShloMosaic Idealize.ShloMosaic.ValueIdx

/-- The divisor's word `0x4B000000` denotes the real `2^23 = 8388608`. -/
theorem den_eq : den = ((8388608 : ℝ) : EReal) := by
  simp [den, Ideal.ofBits, Ideal.ieee, -EReal.coe_mul]

/-- Multiplication by a non-negative real distributes over a finite sum of extended reals. -/
theorem sum_mul_coe_of_nonneg {ι : Type} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (by exact_mod_cast hc) (EReal.coe_ne_top c), ih]

/-- Dividing the rows' total once equals adding the rows' quotients. -/
theorem infoK_eq_infoR (att : (⟨2, ![32, 2048]⟩ : Shape).Idx → EReal) : infoK att = infoR att := by
  have h : (8388608 : ℝ) ≠ 0 := by norm_num
  unfold infoK infoR
  rw [den_eq]
  simp only [Ideal.div_coe h]
  exact sum_mul_coe_of_nonneg _ _ (by norm_num)

/-- One axis: an index below `a·n` is `n·p + x` with `p < a`, `x < n`, exactly once. -/
theorem sum_axis {M : Type} [AddCommMonoid M] (a n N : ℕ) (h : a * n = N) (g : ℕ → M) :
    (∑ X : Fin N, g X.val) = ∑ p : Fin a, ∑ x : Fin n, g (n * p.val + x.val) := by
  subst h
  refine Eq.trans ?_ (Fintype.sum_prod_type' (fun (p : Fin a) (x : Fin n) => g (n * p.val + x.val)))
  refine (Fintype.sum_equiv finProdFinEquiv _ _ ?_).symm
  rintro ⟨p, x⟩
  simp [finProdFinEquiv, Nat.add_comm]

/-- The grid points times their tiles enumerate the whole index set once. -/
theorem sum_points (F : ℕ → ℕ → ℕ → EReal) :
    (∑ t : Fin 256, ∑ b : Fin 8, ∑ i : Fin 256, ∑ j : Fin 256,
        F (8 * (t.val / 64) + b.val) (256 * (t.val / 8 % 8) + i.val) (256 * (t.val % 8) + j.val))
      = ∑ B : Fin 32, ∑ I : Fin 2048, ∑ J : Fin 2048, F B.val I.val J.val := by
  -- the right side, each axis split
  have hR : (∑ B : Fin 32, ∑ I : Fin 2048, ∑ J : Fin 2048, F B.val I.val J.val)
      = ∑ p : Fin 4, ∑ b : Fin 8, ∑ q : Fin 8, ∑ i : Fin 256, ∑ r : Fin 8, ∑ j : Fin 256,
          F (8 * p.val + b.val) (256 * q.val + i.val) (256 * r.val + j.val) := by
    refine (sum_axis 4 8 32 rfl (fun B => ∑ I : Fin 2048, ∑ J : Fin 2048, F B I.val J.val)).trans ?_
    refine Finset.sum_congr rfl fun p _ => Finset.sum_congr rfl fun b _ => ?_
    refine (sum_axis 8 256 2048 rfl (fun I => ∑ J : Fin 2048, F (8 * p.val + b.val) I J.val)).trans ?_
    refine Finset.sum_congr rfl fun q _ => Finset.sum_congr rfl fun i _ => ?_
    exact sum_axis 8 256 2048 rfl (fun J => F (8 * p.val + b.val) (256 * q.val + i.val) J)
  -- the left side, the grid point split into its three digits
  have hL : (∑ t : Fin 256, ∑ b : Fin 8, ∑ i : Fin 256, ∑ j : Fin 256,
        F (8 * (t.val / 64) + b.val) (256 * (t.val / 8 % 8) + i.val) (256 * (t.val % 8) + j.val))
      = ∑ p : Fin 4, ∑ q : Fin 8, ∑ r : Fin 8, ∑ b : Fin 8, ∑ i : Fin 256, ∑ j : Fin 256,
          F (8 * p.val + b.val) (256 * q.val + i.val) (256 * r.val + j.val) := by
    refine (sum_axis 4 64 256 rfl (fun t => ∑ b : Fin 8, ∑ i : Fin 256, ∑ j : Fin 256,
        F (8 * (t / 64) + b.val) (256 * (t / 8 % 8) + i.val) (256 * (t % 8) + j.val))).trans ?_
    refine Finset.sum_congr rfl fun p _ => ?_
    refine (sum_axis 8 8 64 rfl (fun u => ∑ b : Fin 8, ∑ i : Fin 256, ∑ j : Fin 256,
        F (8 * ((64 * p.val + u) / 64) + b.val) (256 * ((64 * p.val + u) / 8 % 8) + i.val)
          (256 * ((64 * p.val + u) % 8) + j.val))).trans ?_
    refine Finset.sum_congr rfl fun q _ => Finset.sum_congr rfl fun r _ => ?_
    have h1 : (64 * p.val + (8 * q.val + r.val)) / 64 = p.val := by omega
    have h2 : (64 * p.val + (8 * q.val + r.val)) / 8 % 8 = q.val := by omega
    have h3 : (64 * p.val + (8 * q.val + r.val)) % 8 = r.val := by omega
    simp only [h1, h2, h3]
  rw [hL, hR]
  refine Finset.sum_congr rfl fun p _ => ?_
  -- q r b i j  →  b q i r j
  calc (∑ q : Fin 8, ∑ r : Fin 8, ∑ b : Fin 8, ∑ i : Fin 256, ∑ j : Fin 256,
          F (8 * p.val + b.val) (256 * q.val + i.val) (256 * r.val + j.val))
      = ∑ q : Fin 8, ∑ b : Fin 8, ∑ r : Fin 8, ∑ i : Fin 256, ∑ j : Fin 256,
          F (8 * p.val + b.val) (256 * q.val + i.val) (256 * r.val + j.val) :=
        Finset.sum_congr rfl fun q _ => Finset.sum_comm
    _ = ∑ b : Fin 8, ∑ q : Fin 8, ∑ r : Fin 8, ∑ i : Fin 256, ∑ j : Fin 256,
          F (8 * p.val + b.val) (256 * q.val + i.val) (256 * r.val + j.val) := Finset.sum_comm
    _ = ∑ b : Fin 8, ∑ q : Fin 8, ∑ i : Fin 256, ∑ r : Fin 8, ∑ j : Fin 256,
          F (8 * p.val + b.val) (256 * q.val + i.val) (256 * r.val + j.val) :=
        Finset.sum_congr rfl fun b _ => Finset.sum_congr rfl fun q _ => Finset.sum_comm

end Cert.Proof.Gini

end
-- ==== Proof.KI.Value.lean ====
/-
  What the pairwise-gap kernel leaves in its output array, at the ideal values.

  Each of the 256 grid points adds one number to every entry of an 8 × 128 accumulator: the sum, over the point's
  8 rows, of the gaps between its 256 left and its 256 right columns. The point `t = 64·p + 8·q + r` sees rows
  `8·p … 8·p + 7`, left columns `256·q … 256·q + 255` and right columns `256·r … 256·r + 255` of the 32 × 2048
  attention array, so the 256 points together visit every (row, left column, right column) triple exactly once.
  After the last point every entry of the accumulator is therefore the sum over all 32 rows of all ordered pairs'
  gaps within the row; the last point copies the accumulator to the output block, which is the whole output
  array and the only block written back.
-/
import proofs.«109390_j23502061044472_2_alg».proof.Proof.KI.Data
import proofs.«109390_j23502061044472_2_alg».proof.Proof.Payload
import proofs.«109390_j23502061044472_2_alg».proof.Proof.SumLaws
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.Proof.Gini

section Pieces
variable {F : FTy → Type} [FloatOps F]

/-- The zero offsets of a whole rectangle, spelt as the constant function. -/
theorem hz2 : (![0, 0] : Fin 2 → Nat) = fun _ => 0 := funext fun a => by fin_cases a <;> rfl

/-- At a middle point the accumulator is left at the point's gap sum added to what it held. -/
theorem accMid_eq (c : Dev nD) (t : Fin cfg0.N) (hc0 : ¬condFirst (grid0.coords t)) (hc1 : ¬condLast (grid0.coords t))
    (x0 x1 : Vec F S8x256 .f32) (xs : Vec F S8x128 .f32) :
    accMid c t hc0 hc1 x0 x1 xs = k0_pay2 x0 x1 xs := by
  unfold accMid
  rw [View.read_writes_eq_canon _ _ _ (coverMid c t hc0 hc1 x0 x1 xs)]
  unfold runB
  dsimp only
  rw [View.canon_unit_zero hz2]
  simp only [View.readAt_eq_ld, (hs0 t).read_unread, (hs1 t).read_unread, (Memref.isWhole_whole cc0_scratch0).read_unread, View.ld_unit_zero (S := S8x128) hz2, View.ld_unit_zero (S := S8x256) hz2]

/-- At the first point the accumulator is cleared and then left at the point's gap sum added to zero. -/
theorem accFirst_eq (c : Dev nD) (t : Fin cfg0.N) (hc0 : condFirst (grid0.coords t)) (hc1 : ¬condLast (grid0.coords t))
    (x0 x1 : Vec F S8x256 .f32) :
    accFirst c t hc0 hc1 x0 x1 = k0_pay2 x0 x1 (k0_pay1 (F := F)) := by
  unfold accFirst
  rw [View.read_writes_eq_canon _ _ _ (coverFirst c t hc0 hc1 x0 x1)]
  unfold runA
  dsimp only
  sl_unfold_words
  rw [View.canon_cons_unit_zero (S := S8x128) hz2, View.readCov_unit_zero (S := S8x128) _ hz2]
  simp only [View.readAt_eq_ld, (hs0 t).read_unread, (hs1 t).read_unread, (Memref.isWhole_whole cc0_scratch0).read_unread, View.ld_unit_zero (S := S8x128) hz2, View.ld_unit_zero (S := S8x256) hz2]

/-- At the last point the accumulator is left at the point's gap sum added to what it held, -/
theorem accLast_eq (c : Dev nD) (t : Fin cfg0.N) (hc0 : ¬condFirst (grid0.coords t)) (hc1 : condLast (grid0.coords t))
    (x0 x1 : Vec F S8x256 .f32) (xs : Vec F S8x128 .f32) :
    accLast c t hc0 hc1 x0 x1 xs = k0_pay2 x0 x1 xs := by
  unfold accLast
  rw [View.read_writes_eq_canon _ _ _ (coverLastAcc c t hc0 hc1 x0 x1 xs)]
  unfold runC
  dsimp only
  sl_unfold_words
  rw [View.canon_unit_zero hz2]
  simp only [View.readAt_eq_ld, (hs0 t).read_unread, (hs1 t).read_unread, (Memref.isWhole_whole cc0_scratch0).read_unread, View.ld_unit_zero (S := S8x128) hz2, View.ld_unit_zero (S := S8x256) hz2]

/-- and the output block receives a copy of it, taken after the addition. -/
theorem outLast_eq (c : Dev nD) (t : Fin cfg0.N) (hc0 : ¬condFirst (grid0.coords t)) (hc1 : condLast (grid0.coords t))
    (x0 x1 : Vec F S8x256 .f32) (xs : Vec F S8x128 .f32) :
    outLast c t hc0 hc1 x0 x1 xs = k0_pay2 x0 x1 xs := by
  unfold outLast
  rw [View.read_writes_eq_canon _ _ _ (coverLastOut c t hc0 hc1 x0 x1 xs)]
  unfold runC
  dsimp only
  sl_unfold_words
  rw [View.canon_unit_zero hz2, View.readCov_unit_zero (S := S8x128) _ hz2]
  simp only [View.readAt_eq_ld, (hs0 t).read_unread, (hs1 t).read_unread, (Memref.isWhole_whole cc0_scratch0).read_unread, View.ld_unit_zero (S := S8x128) hz2, View.ld_unit_zero (S := S8x256) hz2]

end Pieces

section Blocks
variable {F : FTy → Type} [FloatOps F]
variable (m : (ℓ : Loc nD τ sig) → Buf (Elt F) ℓ)

/-- The grid point's three digits are the windows' block indices, decided once over the grid. -/
theorem index_facts : ∀ t : Fin cfg0.N,
    win0_0.index t (0 : Fin 2) = t.val / 64 ∧ win0_0.index t (1 : Fin 2) = t.val / 8 % 8
      ∧ win0_1.index t (0 : Fin 2) = t.val / 64 ∧ win0_1.index t (1 : Fin 2) = t.val % 8 :=
  (by decide +kernel : ∀ t : Fin grid0.N,
    win0_0.index t (0 : Fin 2) = t.val / 64 ∧ win0_0.index t (1 : Fin 2) = t.val / 8 % 8
      ∧ win0_1.index t (0 : Fin 2) = t.val / 64 ∧ win0_1.index t (1 : Fin 2) = t.val % 8)

/-- The left-columns block at point `t` shows rows `8·(t/64) + b` and columns `256·(t/8 mod 8) + i` of the attention array. -/
theorem iblk0_apply (c : Dev nD) (t : Fin cfg0.N) (b : Fin 8) (i : Fin 256)
    (hB : 8 * (t.val / 64) + b.val < 32) (hI : 256 * (t.val / 8 % 8) + i.val < 2048) :
    (iblk m c 0 t : Vec F S8x256 .f32) (ix2 b i)
      = (V m c main_arg0 : S32x2048.Idx → Elt F .f32) (ix2 ⟨8 * (t.val / 64) + b.val, hB⟩ ⟨256 * (t.val / 8 % 8) + i.val, hI⟩) := by
  have hi := index_facts t
  unfold iblk
  rw [View.read_apply]
  show (V m c main_arg0 : S32x2048.Idx → Elt F .f32) _ = _
  refine congrArg (V m c main_arg0 : S32x2048.Idx → Elt F .f32) ?_
  funext a
  apply Fin.ext
  match a with
  | ⟨0, _⟩ => show win0_0.index t 0 * 8 + 1 * b.val = 8 * (t.val / 64) + b.val; rw [hi.1]; omega
  | ⟨1, _⟩ => show win0_0.index t 1 * 256 + 1 * i.val = 256 * (t.val / 8 % 8) + i.val; rw [hi.2.1]; omega

/-- The right-columns block at point `t` shows rows `8·(t/64) + b` and columns `256·(t mod 8) + j` of the attention array. -/
theorem iblk1_apply (c : Dev nD) (t : Fin cfg0.N) (b : Fin 8) (j : Fin 256)
    (hB : 8 * (t.val / 64) + b.val < 32) (hJ : 256 * (t.val % 8) + j.val < 2048) :
    (iblk m c 1 t : Vec F S8x256 .f32) (ix2 b j)
      = (V m c main_arg0 : S32x2048.Idx → Elt F .f32) (ix2 ⟨8 * (t.val / 64) + b.val, hB⟩ ⟨256 * (t.val % 8) + j.val, hJ⟩) := by
  have hi := index_facts t
  unfold iblk
  rw [View.read_apply]
  show (V m c main_arg0 : S32x2048.Idx → Elt F .f32) _ = _
  refine congrArg (V m c main_arg0 : S32x2048.Idx → Elt F .f32) ?_
  funext a
  apply Fin.ext
  match a with
  | ⟨0, _⟩ => show win0_1.index t 0 * 8 + 1 * b.val = 8 * (t.val / 64) + b.val; rw [hi.2.2.1]; omega
  | ⟨1, _⟩ => show win0_1.index t 1 * 256 + 1 * j.val = 256 * (t.val % 8) + j.val; rw [hi.2.2.2]; omega

end Blocks

section AtIdeal
variable (m : (ℓ : Loc nD τ sig) → Buf (Elt Ideal) ℓ)

/-- Point `t`'s sum of gaps between its left and its right block; zero past the grid. -/
def pointSum (c : Dev nD) (t : ℕ) : EReal :=
  if h : t < cfg0.N then pointGap (iblk m c 0 ⟨t, h⟩) (iblk m c 1 ⟨t, h⟩) else 0

/-- After point `n` the accumulator holds, at every index, the sum of the points' gap sums up to `n`. -/
theorem accAt_eq (c : Dev nD) : ∀ (n : ℕ) (hn : n < cfg0.N),
    accAt (F := Ideal) m c n hn = fun _ => ∑ t ∈ Finset.range (n + 1), pointSum m c t
  | 0, hn => by
    have h255 : ¬(⟨0, hn⟩ : Fin cfg0.N).val = 255 := by show ¬(0 = 255); decide
    funext y
    refine (congrFun (accAt_first m c ⟨0, hn⟩ rfl h255) y).trans ?_
    refine (congrFun (accFirst_eq c ⟨0, hn⟩ _ _ (iblk m c 0 ⟨0, hn⟩) (iblk m c 1 ⟨0, hn⟩)) y).trans ?_
    refine (pay2_apply (iblk m c 0 ⟨0, hn⟩) (iblk m c 1 ⟨0, hn⟩) (k0_pay1 (F := Ideal)) y).trans ?_
    rw [pay1_apply, zero_add, Finset.sum_range_one, pointSum, dif_pos hn]
  | n + 1, hn => by
    have ih := accAt_eq c n (Nat.lt_of_succ_lt hn)
    have h0 : ¬(⟨n + 1, hn⟩ : Fin cfg0.N).val = 0 := Nat.succ_ne_zero n
    funext y
    by_cases h1 : n + 1 = 255
    · refine (congrFun (accAt_last m c ⟨n + 1, hn⟩ h0 h1) y).trans ?_
      refine (congrFun (accLast_eq c ⟨n + 1, hn⟩ _ _ (iblk m c 0 ⟨n + 1, hn⟩) (iblk m c 1 ⟨n + 1, hn⟩)
        (accAt m c n (Nat.lt_of_succ_lt hn))) y).trans ?_
      refine (pay2_apply (iblk m c 0 ⟨n + 1, hn⟩) (iblk m c 1 ⟨n + 1, hn⟩) (accAt m c n (Nat.lt_of_succ_lt hn)) y).trans ?_
      rw [ih, Finset.sum_range_succ _ (n + 1), pointSum, dif_pos hn]
    · refine (congrFun (accAt_mid m c ⟨n + 1, hn⟩ h0 h1) y).trans ?_
      refine (congrFun (accMid_eq c ⟨n + 1, hn⟩ _ _ (iblk m c 0 ⟨n + 1, hn⟩) (iblk m c 1 ⟨n + 1, hn⟩)
        (accAt m c n (Nat.lt_of_succ_lt hn))) y).trans ?_
      refine (pay2_apply (iblk m c 0 ⟨n + 1, hn⟩) (iblk m c 1 ⟨n + 1, hn⟩) (accAt m c n (Nat.lt_of_succ_lt hn)) y).trans ?_
      rw [ih, Finset.sum_range_succ _ (n + 1), pointSum, dif_pos hn]

/-- The gap between entries `(B, I)` and `(B, J)` of a 32 × 2048 array, over natural-number coordinates; zero outside. -/
def gapN (X : S32x2048.Idx → EReal) (B I J : ℕ) : EReal :=
  if h : B < 32 ∧ I < 2048 ∧ J < 2048 then gap (X (ix2 ⟨B, h.1⟩ ⟨I, h.2.1⟩)) (X (ix2 ⟨B, h.1⟩ ⟨J, h.2.2⟩)) else 0

/-- A point's gap sum over the attention array: rows `8·(t/64) + b`, left columns `256·(t/8 mod 8) + i`, right columns `256·(t mod 8) + j`. -/
theorem pointSum_eq (c : Dev nD) (t : Fin 256) :
    pointSum m c t.val = ∑ b : Fin 8, ∑ i : Fin 256, ∑ j : Fin 256,
      gapN (V m c main_arg0) (8 * (t.val / 64) + b.val) (256 * (t.val / 8 % 8) + i.val) (256 * (t.val % 8) + j.val) := by
  have hN : cfg0.N = 256 := N_0
  have ht : t.val < cfg0.N := by rw [hN]; exact t.isLt
  have ht' : t.val < 256 := t.isLt
  rw [pointSum, dif_pos ht]
  unfold pointGap
  refine Finset.sum_congr rfl fun b _ => Finset.sum_congr rfl fun i _ => Finset.sum_congr rfl fun j _ => ?_
  have hb : b.val < 8 := b.isLt
  have hi : i.val < 256 := i.isLt
  have hj : j.val < 256 := j.isLt
  have hB : 8 * (t.val / 64) + b.val < 32 := by omega
  have hI : 256 * (t.val / 8 % 8) + i.val < 2048 := by omega
  have hJ : 256 * (t.val % 8) + j.val < 2048 := by omega
  rw [gapN, dif_pos ⟨hB, hI, hJ⟩]
  exact congrArg₂ gap (iblk0_apply m c ⟨t.val, ht⟩ b i hB hI) (iblk1_apply m c ⟨t.val, ht⟩ b j hB hJ)

/-- All points' gap sums together are all rows' gap sums. -/
theorem sum_pointSum (c : Dev nD) :
    ∑ t ∈ Finset.range 256, pointSum m c t = ∑ B : Fin 32, rowGap (V m c main_arg0) B := by
  rw [← Fin.sum_univ_eq_sum_range (fun t => pointSum m c t) 256]
  refine (Finset.sum_congr rfl fun t _ => pointSum_eq m c t).trans ?_
  refine (sum_points (gapN (V m c main_arg0))).trans ?_
  unfold rowGap
  refine Finset.sum_congr rfl fun B _ => Finset.sum_congr rfl fun I _ => Finset.sum_congr rfl fun J _ => ?_
  rw [gapN, dif_pos ⟨B.isLt, I.isLt, J.isLt⟩]

/-- What the last point copies to the output block: the total of all rows' gap sums, at every index. -/
theorem out255 (c : Dev nD) (h : 255 < cfg0.N) :
    outAt (F := Ideal) m c ⟨255, h⟩ = fun _ => ∑ B : Fin 32, rowGap (V m c main_arg0) B := by
  have h0 : ¬(⟨255, h⟩ : Fin cfg0.N).val = 0 := by show ¬(255 = 0); decide
  funext y
  refine (congrFun (outAt_last m c ⟨255, h⟩ h0 rfl) y).trans ?_
  refine (congrFun (outLast_eq c ⟨255, h⟩ _ _ (iblk m c 0 ⟨255, h⟩) (iblk m c 1 ⟨255, h⟩)
    (accAt m c 254 (Nat.lt_of_succ_lt h))) y).trans ?_
  refine (pay2_apply (iblk m c 0 ⟨255, h⟩) (iblk m c 1 ⟨255, h⟩) (accAt m c 254 (Nat.lt_of_succ_lt h)) y).trans ?_
  rw [accAt_eq m c 254 (Nat.lt_of_succ_lt h), ← sum_pointSum m c, Finset.sum_range_succ _ 255, pointSum, dif_pos h]

end AtIdeal

section Array
variable (m : (ℓ : Loc nD τ sig) → Buf (Elt Ideal) ℓ)

/-- The total of all rows' gap sums of the attention array as the region finds it. -/
abbrev total (c : Dev nD) : EReal := ∑ B : Fin 32, rowGap (V m c main_arg0) B

/-- The last grid point. -/
abbrev tLast : Fin cfg0.N := ⟨255, by rw [show cfg0.N = 256 from N_0]; decide⟩

/-- The one write-back, at the last point, writes the total at every index of its block. -/
theorem flushed_eq (c : Dev nD) (t : Fin cfg0.N) (hf : (cfg0.win 2).flush t = true) :
    (dats (F := Ideal) m 0 c).flushed 2 t
      = ((cfg0.win 2).blk t).view.read (Elt Ideal) (fun _ => total m c) := by
  have hN : cfg0.N = 256 := N_0
  have h255 : t.val = 255 := by have := (flush0_2 t).mp hf; have := t.isLt; omega
  obtain rfl : t = tLast := Fin.ext h255
  show (cfg0.win 2).cut (grid0.coords tLast) ((dats m 0 c).after 2 tLast) = _
  rw [after2, out255 m c tLast.isLt]
  funext x
  rw [View.read_apply]
  rfl

/-- So the output array ends holding the total of all rows' gap sums at every index. -/
theorem arr_final (c : Dev nD) :
    (dats (F := Ideal) m 0 c).arrAt 2 cfg0.N = fun _ => total m c :=
  (dats m 0 c).arrAt_eq_of_cover 2 (fun _ => total m c) (flushed_eq m c) fun i =>
    ⟨tLast, (flush0_2 tLast).mpr rfl, by
      show i ∈ ((View.whole main_v6).slice (win0_2.rect tLast)).set
      rw [View.set_slice_whole, Rect.mem_set_unit]
      intro a
      have h0 : (i 0 : Nat) < 8 := (i 0).isLt
      have h1 : (i 1 : Nat) < 128 := (i 1).isLt
      match a with
      | ⟨0, _⟩ =>
        show win0_2.index tLast 0 * win0_2.size 0 ≤ (i 0 : Nat)
          ∧ (i 0 : Nat) < win0_2.index tLast 0 * win0_2.size 0 + win0_2.xsize (grid0.coords tLast) 0
        rw [show win0_2.index tLast 0 * win0_2.size 0 = 0 from by decide +kernel,
          show win0_2.xsize (grid0.coords tLast) 0 = 8 from by decide +kernel]
        omega
      | ⟨1, _⟩ =>
        show win0_2.index tLast 1 * win0_2.size 1 ≤ (i 1 : Nat)
          ∧ (i 1 : Nat) < win0_2.index tLast 1 * win0_2.size 1 + win0_2.xsize (grid0.coords tLast) 1
        rw [show win0_2.index tLast 1 * win0_2.size 1 = 0 from by decide +kernel,
          show win0_2.xsize (grid0.coords tLast) 1 = 128 from by decide +kernel]
        omega⟩

end Array

end Cert.KernelIdeal.Hand

end
-- ==== Proof.KI.EntryIdeal.lean ====
/-
  The host lines around the region, at the extended reals.

  Before the region the kernel program computes the cross-entropy term by the same operations as the reference, so
  what the region finds in that term's buffer is the one function `predRef` of the launched logits and labels. After
  the region it takes the entry at (0, 0) of the 8 × 128 output array — the accumulated sum of gaps —, divides it by
  `2·2048²`, halves it and subtracts it from the cross-entropy term.
-/
import proofs.«109390_j23502061044472_2_alg».proof.Proof.KI.Entry
import proofs.«109390_j23502061044472_2_alg».proof.Proof.Pred
import proofs.«109390_j23502061044472_2_alg».proof.Proof.Spec
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo Idealize.ShloMosaic.ValueIdx

/-! ## The cross-entropy term at the region's entry -/

/-- The 43 lines before the region leave in their last buffer the cross-entropy term of the launched logits and
    labels. -/
theorem V_pred (m : (ℓ : Loc nD τ sig) → Buf (Elt Ideal) ℓ) (c : Dev nD) :
    V (F := Ideal) m c main_v5
      = Cert.Proof.Gini.predRef (m ((c : Thread nD τ).loc main_arg1)) (m ((c : Thread nD τ).loc main_arg2)) := by
  dsimp only [V, V0, preOps]
  simp only [hostOps0, hostOps0_1, hostOps0_2, hostOps0_3, List.flatten_cons, List.flatten_nil, List.append_nil,
    List.cons_append, List.nil_append]
  after_results_simp
  rfl

/-! ## The seven lines after the region -/

/-- The one element of the 1 × 1 corner block of an 8 × 128 array, read as a scalar: the array's entry at (0, 0). -/
theorem slice_scalar {α : Type} (y : S8x128.Idx → α) (h1 : S8x128.Slices ![0, 0] S1x1) (h2 : S1x1.ShapeCasts S_) (i : S_.Idx) :
    shapeCast S_ (extractStridedSlice S1x1 ![0, 0] y h1) h2 i = y (ix2 0 0) := by
  unfold shapeCast
  refine extractStridedSlice_apply _ y h1 _ (ix2 0 0) fun a => ?_
  match a with
  | ⟨0, _⟩ =>
    have : (Shape.reshapeEquiv h2 i ⟨0, by decide⟩).val < 1 :=
      Nat.lt_of_lt_of_eq (Shape.reshapeEquiv h2 i ⟨0, by decide⟩).isLt rfl
    show 0 = 0 + (Shape.reshapeEquiv h2 i ⟨0, by decide⟩).val
    omega
  | ⟨1, _⟩ =>
    have : (Shape.reshapeEquiv h2 i ⟨1, by decide⟩).val < 1 :=
      Nat.lt_of_lt_of_eq (Shape.reshapeEquiv h2 i ⟨1, by decide⟩).isLt rfl
    show 0 = 0 + (Shape.reshapeEquiv h2 i ⟨1, by decide⟩).val
    omega

/-- The seven lines' composed term of a scalar `p` and an 8 × 128 array `y`: `p` minus one half of the quotient of
    `y`'s entry at (0, 0) by `2·2048²`. -/
theorem tail_term (p : (⟨S_, .f32⟩ : BufTy).Contents (Elt Ideal)) (y : (⟨S8x128, .f32⟩ : BufTy).Contents (Elt Ideal))
    (h1 : S8x128.Slices ![0, 0] S1x1) (h2 : S1x1.ShapeCasts S_) :
    subf (F := Ideal) p (mulf (F := Ideal) (constant (F := Ideal) S_ .f32 0x3F000000#32)
        (Host.divf (F := Ideal) (fun i => shapeCast S_ (extractStridedSlice S1x1 ![0, 0] y h1) h2 i)
          (constant (F := Ideal) S_ .f32 0x4B000000#32)))
      = fun _ => Cert.Proof.Gini.combine (p ix0) (Ideal.div (y (ix2 0 0)) Cert.Proof.Gini.den) := by
  funext i
  show p i - Ideal.ofBits .f32 0x3F000000#32
      * Ideal.div (shapeCast S_ (extractStridedSlice S1x1 ![0, 0] y h1) h2 i) (Ideal.ofBits .f32 0x4B000000#32) = _
  rw [slice_scalar, eq_ix0 i]
  rfl

/-- The seven lines after the region leave in the result buffer the cross-entropy term minus one half of the quotient
    of the output array's entry at (0, 0) by `2·2048²`. -/
theorem tail_v11 (W : Valuation τ sig (Elt Ideal)) :
    StableHlo.after (hostOps1 (F := Ideal)) W (Proc.devRef .tc main_v11)
      = fun _ => Cert.Proof.Gini.combine (W (Proc.devRef .tc main_v5) ValueIdx.ix0)
          (Ideal.div (W (Proc.devRef .tc main_v6) (ValueIdx.ix2 0 0)) Cert.Proof.Gini.den) := by
  simp only [hostOps1]
  after_results
  exact tail_term _ _ _ _

end Cert.KernelIdeal.Hand

end
-- ==== Proof.KI.Result.lean ====
/-
  The value the pairwise-gap program returns, at the exact (extended-real) reading of its floats.

  After the region the output array holds, in every entry, the total of all rows' pairwise gaps: the accumulator's
  running sum over the 256 grid points, whose tiles enumerate every (row, left column, right column) once. The seven
  host lines that follow take its first entry, divide it by `2·2048²`, halve it and subtract it from the
  cross-entropy term the 43 lines before the region computed. Dividing a finite sum by a positive real is the sum of
  the quotients, which is how the reference states the same number.
-/
import proofs.«109390_j23502061044472_2_alg».proof.Proof.KI.Frame
import proofs.«109390_j23502061044472_2_alg».proof.Proof.KI.Value
import proofs.«109390_j23502061044472_2_alg».proof.Proof.KI.EntryIdeal
import proofs.«109390_j23502061044472_2_alg».proof.Proof.SumLaws

set_option maxRecDepth 16384

noncomputable section

namespace Cert.KernelIdeal.Hand

open Cert.KernelIdeal Cert.KernelIdeal.Gen Cert.Proof.Gini
open Idealize.ShloMosaic Idealize.ShloMosaic.TcCoe Idealize.SL.Sem

variable (m : (ℓ : Loc nD τ sig) → Buf (Elt Ideal) ℓ) (ρ : Dev nD → PrngReg)

theorem result_bypasses : main_v11 ∈ Pipeline.restRefsP sig Pipeline.Prefetch.none spec0 := by decide

/-- The result buffer after the last host line: the cross-entropy term minus half the information term, the latter in
    the reference's form (each row's sum divided, then added). -/
theorem result_eq (c : Dev nD) :
    Vend (F := Ideal) m c main_v11
      = fun _ => combine (predRef (m ((c : Thread nD τ).loc main_arg1)) (m ((c : Thread nD τ).loc main_arg2)) ValueIdx.ix0)
          (infoR (m ((c : Thread nD τ).loc main_arg0))) := by
  unfold Vend
  rw [tail_v11, Wexit_of_ne m c main_v5 (by decide), Wexit_out, V_pred, arr_final]
  funext _
  dsimp only [total]
  rw [V_arg0, ← infoK_eq_infoR]
  rfl

/-- The program's run at the exact reading: it ends with the result buffer at the specification's value and the three
    arguments unchanged. -/
theorem kernel_value :
    θ_run (defs (F := Ideal)) (onTc (τ := τ) (main (F := Ideal))) ⟨m, fun _ => 0, ρ⟩ (fun r => ∀ c : Dev nD,
      r.2.mem ((c.tc : Thread nD τ).loc main_v11)
        = (fun _ => combine (predRef (m ((c.tc : Thread nD τ).loc main_arg1)) (m ((c.tc : Thread nD τ).loc main_arg2)) ValueIdx.ix0)
            (infoR (m ((c.tc : Thread nD τ).loc main_arg0))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h c).2 main_v11 result_bypasses).trans (result_eq m c),
     ((h c).1 0).trans ((((dats m 0 c).arrAt_in 0 rfl _).trans (A_eq m c 0)).trans (V_arg0 m c)),
     ((h c).2 main_arg1 arg1_bypasses).trans ((Vend_keep m c main_arg1 (by decide) (by decide)).trans (V_arg1 m c)),
     ((h c).2 main_arg2 arg2_bypasses).trans ((Vend_keep m c main_arg2 (by decide) (by decide)).trans (V_arg2 m c))⟩)
    (run_main m ρ)

end Cert.KernelIdeal.Hand

end
-- ==== Proof.lean ====
/-
  The certificate of the pairwise-gap loss kernel against its reference.

  Both programs compute the same cross-entropy term by the same host operations, and an information term from the
  32 × 2048 attention array: with `x = log (att + ε)`, the sum over all rows and all ordered pairs of columns of
  `|x[b,i] − x[b,j]|`, divided by `2·2048²`. The kernel tiles the pairs over a 4 × 8 × 8 grid, adds each tile's sum to
  a running accumulator, and divides the total once; the reference divides each row's sum and adds the quotients.
  On the extended reals division by a positive real distributes over a finite sum, so the two agree for every input.
  The three frames say that each program runs to the end without a fault and leaves its arguments unchanged; the
  kernel's idealization rewrites nothing, so there is nothing to preserve.
-/
import proofs.«109390_j23502061044472_2_alg».proof.Defs
import proofs.«109390_j23502061044472_2_alg».proof.Proof.Gen.Kernel
import proofs.«109390_j23502061044472_2_alg».proof.Proof.Gen.KernelIdeal
import proofs.«109390_j23502061044472_2_alg».proof.Proof.Gen.ReferenceIdeal
import proofs.«109390_j23502061044472_2_alg».proof.Proof.Gen.Pre_finite_inputs
import proofs.«109390_j23502061044472_2_alg».proof.Proof.RefFrame
import proofs.«109390_j23502061044472_2_alg».proof.Proof.RefValue
import proofs.«109390_j23502061044472_2_alg».proof.Proof.KB.Frame
import proofs.«109390_j23502061044472_2_alg».proof.Proof.KI.Frame
import proofs.«109390_j23502061044472_2_alg».proof.Proof.KI.Result
import Idealize.ShloMosaic.Adequacy
import Idealize.ShloMosaic.Init

noncomputable section

namespace Cert.Proof

open Idealize.ShloMosaic Idealize.ShloMosaic.TcCoe Idealize.SL.Sem Cert.Proof.Gini

/-- The word-level kernel runs to the end and keeps its arguments. -/
theorem frame_kernel : Cert.frame_Kernel := fun m ρ _ => Cert.Kernel.Hand.frame m ρ

/-- So does its exact reading. -/
theorem frame_kernel_ideal : Cert.frame_KernelIdeal := fun m ρ _ => Cert.KernelIdeal.Hand.frame m ρ

/-- The idealization rewrote no operation. -/
theorem preserves : Cert.preserves_Kernel_KernelIdeal := trivial

/-- From memories agreeing on the arguments both programs end with the same loss: the kernel's run and the reference's
    run are stated at one specification, read at the kernel's arguments. -/
theorem algebraic : Cert.algebraic_KernelIdeal_ReferenceIdeal := by
  intro m ρ m' ρ' _ hagree
  refine ⟨_, Cert.KernelIdeal.Hand.kernel_value m ρ, ?_⟩
  refine (θ_run Cert.ReferenceIdeal.defs _ _).mono (fun _ h c => ⟨(h c).1.trans ?_, (h c).2⟩) (reference_value m' ρ')
  rw [(hagree c).1, (hagree c).2.1, (hagree c).2.2]
  rfl

theorem claim : Cert.Claim := ⟨Cert.Kernel.Gen.facts, Cert.KernelIdeal.Gen.facts, Cert.ReferenceIdeal.Gen.facts, Cert.Pre_finite_inputs.Gen.facts,
  frame_kernel, frame_kernel_ideal, Cert.Proof.Gini.frame_reference, preserves, algebraic⟩

end Cert.Proof

end
